-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16 : Shape := ⟨2, ![4096, 16]⟩
abbrev S16 : Shape := ⟨1, ![16]⟩
abbrev S_ : Shape := ⟨0, ![]⟩

class Facts : Prop where
  bcast_S_S4096x16 : S_.BroadcastsInDim S4096x16 (![] : Fin 0 → Fin S4096x16.rank)
  reducesTo_S4096x16_S_d0_1 : S4096x16.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S4096x16 .f32) (main_arg1 : FVec F S16 .f32) : IVec S_ 1 :=
  let main_v0 : FVec F S4096x16 .f32 := Host.absf main_arg0
  let main_cst : FVec F S_ .f32 := constant S_ .f32 0x7F800000#32
  let main_v1 : FVec F S4096x16 .f32 := broadcastInDim S4096x16 ![] bcast_S_S4096x16 main_cst
  let main_v2 : IVec S4096x16 1 := cmpf .olt main_v0 main_v1
  let main_c : IVec S_ 1 := constantI S_ 1 1#1
  let main_v3 : IVec S_ 1 := (fun x v => Host.reduce IntOp.andi x v reducesTo_S4096x16_S_d0_1 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  main_v8
-- ==== Kernel.lean ====
abbrev S4096x16 : Shape := ⟨2, ![4096, 16]⟩
abbrev S16 : Shape := ⟨1, ![16]⟩
abbrev S1x16 : Shape := ⟨2, ![1, 16]⟩
abbrev S2048x16 : Shape := ⟨2, ![2048, 16]⟩
abbrev S1024x16 : Shape := ⟨2, ![1024, 16]⟩
abbrev S2048x17 : Shape := ⟨2, ![2048, 17]⟩
abbrev S2048 : Shape := ⟨1, ![2048]⟩
abbrev S2048x1 : Shape := ⟨2, ![2048, 1]⟩
abbrev S1024 : Shape := ⟨1, ![1024]⟩
abbrev S1024x1 : Shape := ⟨2, ![1024, 1]⟩
abbrev S2048x18 : Shape := ⟨2, ![2048, 18]⟩
abbrev S1024x18 : Shape := ⟨2, ![1024, 18]⟩
abbrev S2048x1024 : Shape := ⟨2, ![2048, 1024]⟩
abbrev S1024x17 : Shape := ⟨2, ![1024, 17]⟩

abbrev nBuf : Space → Nat
  | .hbm => 4
  | .vmem => 8
  | .smem => 0
  | _ => 0

abbrev bufTy : (tb : Table) → Fin (tcTables nBuf tb) → BufTy
  | .hbm, ⟨0, _⟩ => ⟨S4096x16, .f32⟩
  | .hbm, ⟨1, _⟩ => ⟨S16, .f32⟩
  | .hbm, ⟨2, _⟩ => ⟨S1x16, .f32⟩
  | .hbm, ⟨3, _⟩ => ⟨S4096x16, .f32⟩
  | .local _ .vmem, ⟨0, _⟩ => ⟨S2048x16, .f32⟩
  | .local _ .vmem, ⟨1, _⟩ => ⟨S2048x16, .f32⟩
  | .local _ .vmem, ⟨2, _⟩ => ⟨S1024x16, .f32⟩
  | .local _ .vmem, ⟨3, _⟩ => ⟨S1024x16, .f32⟩
  | .local _ .vmem, ⟨4, _⟩ => ⟨S1x16, .f32⟩
  | .local _ .vmem, ⟨5, _⟩ => ⟨S2048x16, .f32⟩
  | .local _ .vmem, ⟨6, _⟩ => ⟨S2048x16, .f32⟩
  | .local _ .vmem, ⟨7, _⟩ => ⟨S2048x17, .f32⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v32 : BitVec 1 := Scalar.cmpi .eq arg1 c3_i32
  let v33 : BitVec 32 := Scalar.extui v32
  let c0_i32_16 : BitVec 32 := 0#32
  let v34 : BitVec 1 := Scalar.cmpi .ne v33 c0_i32_16
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16_S1x16 : S16.ShapeCasts S1x16
  inb_S2048x17_S2048x17_0_0 : ∀ a, (![0, 0] : Fin 2 → Nat) a + S2048x17.size a ≤ S2048x17.size a
  h_S2048x17 : 0 < S2048x17.numel
  shapeCasts_S2048x17_S2048x17 : S2048x17.ShapeCasts S2048x17
  inb_S2048x16_S2048x16_0_0 : ∀ a, (![0, 0] : Fin 2 → Nat) a + S2048x16.size a ≤ S2048x16.size a
  h_S2048x16 : 0 < S2048x16.numel
  inb_S1024x16_S1024x16_0_0 : ∀ a, (![0, 0] : Fin 2 → Nat) a + S1024x16.size a ≤ S1024x16.size a
  h_S1024x16 : 0 < S1024x16.numel
  reduces_S2048x16_S2048 : S2048x16.Reduces [1] S2048
  shapeCasts_S2048_S2048x1 : S2048.ShapeCasts S2048x1
  reduces_S1024x16_S1024 : S1024x16.Reduces [1] S1024
  shapeCasts_S1024_S1024x1 : S1024.ShapeCasts S1024x1
  concatenates_S2048x16_S2048x1_S2048x1_S2048x18_d1 : Shape.Concatenates [S2048x16, S2048x1, S2048x1] S2048x18 1
  concatenates_S1024x16_S1024x1_S1024x1_S1024x18_d1 : Shape.Concatenates [S1024x16, S1024x1, S1024x1] S1024x18 1
  concatenates_S1024x16_S1024x1_S1024x17_d1 : Shape.Concatenates [S1024x16, S1024x1] S1024x17 1
  bitsLt_bf16_f32 : FTy.bits .bf16 < FTy.bits .f32
  inb_S1x16_S1x16_0_0 : ∀ a, (![0, 0] : Fin 2 → Nat) a + S1x16.size a ≤ S1x16.size a
  h_S1x16 : 0 < S1x16.numel
  shapeCasts_S1x16_S1x16 : S1x16.ShapeCasts S1x16
  slices_S2048x17_o0_0_S2048x16 : S2048x17.Slices ![0, 0] S2048x16
  slices_S2048x17_o0_16_S2048x1 : S2048x17.Slices ![0, 16] S2048x1
  broadcasts_S1x16_S2048x16 : S1x16.Broadcasts S2048x16
  broadcasts_S2048x1_S2048x16 : S2048x1.Broadcasts S2048x16
  dot_S2048x18_S1024x18_S2048x1024_1_1_0_0_n_n_wf : DotDims.WF S2048x18 S1024x18 S2048x1024 [1] [1] [0] [0] [] []
  dot_S2048x1024_S1024x17_S2048x17_1_0_0_1_n_n_wf : DotDims.WF S2048x1024 S1024x17 S2048x17 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x16.size a ≤ S4096x16.size a
  hwx0_0 : ∀ i : grid0.Coords, EltTy.bits .f32 = 32 ∨ (Rect.block (s := S4096x16) S2048x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S4096x16.size a
  hwx0_1 : ∀ i : grid0.Coords, EltTy.bits .f32 = 32 ∨ (Rect.block (s := S4096x16) S1024x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x16.size a ≤ S4096x16.size a
  hwx0_3 : ∀ i : grid0.Coords, EltTy.bits .f32 = 32 ∨ (Rect.block (s := S4096x16) S2048x16.size (cc0_transform_3 i) (hinb0_3 i)).WholeWords (EltTy.packing .f32)

variable [Facts₀]

def dot_S2048x18_S1024x18_S2048x1024_1_1_0_0_n_n : DotDims S2048x18 S1024x18 S2048x1024 where
  lhsContracting := [1]
  rhsContracting := [1]
  lhsNonContracting := [0]
  rhsNonContracting := [0]
  lhsBatch := []
  rhsBatch := []
  wf := dot_S2048x18_S1024x18_S2048x1024_1_1_0_0_n_n_wf
def dot_S2048x1024_S1024x17_S2048x17_1_0_0_1_n_n : DotDims S2048x1024 S1024x17 S2048x17 where
  lhsContracting := [1]
  rhsContracting := [0]
  lhsNonContracting := [0]
  rhsNonContracting := [1]
  lhsBatch := []
  rhsBatch := []
  wf := dot_S2048x1024_S1024x17_S2048x17_1_0_0_1_n_n_wf

abbrev win0_0 : Pipeline.Window sig grid0 :=
  Pipeline.Window.ofSpec (Memref.whole main_arg0) S2048x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x16 : Shape := ⟨2, ![4096, 16]⟩
abbrev S16 : Shape := ⟨1, ![16]⟩
abbrev S4096x1x16 : Shape := ⟨3, ![4096, 1, 16]⟩
abbrev S1x4096x16 : Shape := ⟨3, ![1, 4096, 16]⟩
abbrev S4096x4096x16 : Shape := ⟨3, ![4096, 4096, 16]⟩
abbrev S_ : Shape := ⟨0, ![]⟩
abbrev S4096x4096 : Shape := ⟨2, ![4096, 4096]⟩
abbrev S1x16 : Shape := ⟨2, ![1, 16]⟩
abbrev S4096x4096x1 : Shape := ⟨3, ![4096, 4096, 1]⟩

abbrev nBuf : Space → Nat
  | .hbm => 33
  | .vmem => 0
  | .smem => 0
  | _ => 0

abbrev bufTy : (tb : Table) → Fin (tcTables nBuf tb) → BufTy
  | .hbm, ⟨0, _⟩ => ⟨S4096x16, .f32⟩
  | .hbm, ⟨1, _⟩ => ⟨S16, .f32⟩
  | .hbm, ⟨2, _⟩ => ⟨S4096x1x16, .f32⟩
  | .hbm, ⟨3, _⟩ => ⟨S1x4096x16, .f32⟩
  | .hbm, ⟨4, _⟩ => ⟨S4096x4096x16, .f32⟩
  | .hbm, ⟨5, _⟩ => ⟨S4096x4096x16, .f32⟩
  | .hbm, ⟨6, _⟩ => ⟨S4096x4096x16, .f32⟩
  | .hbm, ⟨7, _⟩ => ⟨S4096x4096x16, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S1x16, .f32⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S_, .f32⟩
  | .hbm, ⟨21, _⟩ => ⟨S4096x4096x16, .f32⟩
  | .hbm, ⟨22, _⟩ => ⟨S4096x4096x16, .f32⟩
  | .hbm, ⟨23, _⟩ => ⟨S4096x4096x16, .f32⟩
  | .hbm, ⟨24, _⟩ => ⟨S4096x4096x1, .f32⟩
  | .hbm, ⟨25, _⟩ => ⟨S4096x4096x16, .f32⟩
  | .hbm, ⟨26, _⟩ => ⟨S4096x4096x16, .f32⟩
  | .hbm, ⟨27, _⟩ => ⟨S_, .f32⟩
  | .hbm, ⟨28, _⟩ => ⟨S4096x16, .f32⟩
  | .hbm, ⟨29, _⟩ => ⟨S4096x16, .f32⟩
  | .hbm, ⟨30, _⟩ => ⟨S_, .f32⟩
  | .hbm, ⟨31, _⟩ => ⟨S4096x16, .f32⟩
  | .hbm, ⟨32, _⟩ => ⟨S4096x16, .f32⟩
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]

class Facts₀ : Prop where
  bcast_S4096x16_S4096x1x16_0_2 : S4096x16.BroadcastsInDim S4096x1x16 (![0, 2] : Fin 2 → Fin S4096x1x16.rank)
  bcast_S4096x16_S1x4096x16_1_2 : S4096x16.BroadcastsInDim S1x4096x16 (![1, 2] : Fin 2 → Fin S1x4096x16.rank)
  bcast_S4096x1x16_S4096x4096x16_0_1_2 : S4096x1x16.BroadcastsInDim S4096x4096x16 (![0, 1, 2] : Fin 3 → Fin S4096x4096x16.rank)
  bcast_S1x4096x16_S4096x4096x16_0_1_2 : S1x4096x16.BroadcastsInDim S4096x4096x16 (![0, 1, 2] : Fin 3 → Fin S4096x4096x16.rank)
  reducesTo_S4096x4096x16_S4096x4096_d2 : S4096x4096x16.ReducesTo [2] S4096x4096
  h_S_ : 0 < S_.numel
  bcast_S_S4096x4096 : S_.BroadcastsInDim S4096x4096 (![] : Fin 0 → Fin S4096x4096.rank)
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  bcast_S_S4096x4096x16 : S_.BroadcastsInDim S4096x4096x16 (![] : Fin 0 → Fin S4096x4096x16.rank)
  bcast_S4096x4096_S4096x4096x1_0_1 : S4096x4096.BroadcastsInDim S4096x4096x1 (![0, 1] : Fin 2 → Fin S4096x4096x1.rank)
  bcast_S4096x4096x1_S4096x4096x16_0_1_2 : S4096x4096x1.BroadcastsInDim S4096x4096x16 (![0, 1, 2] : Fin 3 → Fin S4096x4096x16.rank)
  reducesTo_S4096x4096x16_S4096x16_d0 : S4096x4096x16.ReducesTo [0] S4096x16
  bcast_S_S4096x16 : S_.BroadcastsInDim S4096x16 (![] : Fin 0 → Fin S4096x16.rank)
  dot_S4096x4096_S4096x16_S4096x16_1_0_0_1_n_n_wf : DotDims.WF S4096x4096 S4096x16 S4096x16 [1] [0] [0] [1] [] []

variable [Facts₀]

def dot_S4096x4096_S4096x16_S4096x16_1_0_0_1_n_n : DotDims S4096x4096 S4096x16 S4096x16 where
  lhsContracting := [1]
  rhsContracting := [0]
  lhsNonContracting := [0]
  rhsNonContracting := [1]
  lhsBatch := []
  rhsBatch := []
  wf := dot_S4096x4096_S4096x16_S4096x16_1_0_0_1_n_n_wf

class Facts : Prop extends Facts₀ where

variable [Facts]
-- ==== Proof.KernelCases.lean ====
/-
  The blocked program's body, run once in each of its three cases, on any staging buffers.

  The body sees a block of 2048 rows (x0), a block of 1024 columns (x1), the mean as a row (x2), the result's block
  (x3) and the 2048 × 17 accumulator (xs). At the first column block it zeroes the accumulator before updating it; at
  every column block it replaces the accumulator by its update from the two blocks; at the last column block it also
  writes the result block formed from the rows, the mean and the full accumulator. Each run names what every buffer
  holds afterwards as the program's own pure terms of what it held before.
-/
import proofs.«158856_j48387101557205_2_alg».proof.Proof.Gen.Kernel.Launch
import proofs.«158856_j48387101557205_2_alg».proof.Proof.Gen.Kernel.Skeleton
import proofs.«158856_j48387101557205_2_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition — the column-block coordinate is zero — from the grid coordinates. -/
abbrev cond1 (i : grid0.Coords) : Prop := (Scalar.cmpi .ne (Scalar.extui (Scalar.cmpi .eq (BitVec.ofNat 32 (i 1).val) 0#32)) 0#32) = 1#1
/-- The second branch's condition — the column-block coordinate is the last. -/
abbrev cond2 (i : grid0.Coords) : Prop := k0_cond2 i = 1#1

/-- The zero offsets of a two-axis block. -/
theorem hz2 : (![0, 0] : Fin 2 → Nat) = fun _ => 0 := by funext a; fin_cases a <;> rfl

section ReadBack

variable {Val : EltTy → Type} [∀ e, Nonempty (Val e)] {S : Shape} {e : EltTy} {sg : RefSig} {κ : Kind} {sp : Space}

/-- After stores of which the LAST went through the whole block, a buffer reads back that store's value. -/
theorem read_writes_head_whole (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

end ReadBack

set_option maxHeartbeats 1000000 in
theorem run_mid (c : Dev nD) (i : grid0.Coords) (arg2 : Memref sig .tc .vmem S2048x16 .f32) (harg2 : arg2.IsWhole) (arg3 : Memref sig .tc .vmem S1024x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x17 .f32) (harg6 : arg6.IsWhole)
    (hc1 : ¬cond1 i) (hc2 : ¬cond2 i)
    (x0 : Vec F S2048x16 .f32) (x1 : Vec F S1024x16 .f32) (x2 : Vec F S1x16 .f32) (x3 : Vec F S2048x16 .f32) (xs : Vec F S2048x17 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (x3) ∗ owns (c : Thread nD τ) arg6 fullShare (k0_pay3 x0 x1 xs)) -∗ K ⟨⟩))
      ⊢ wp frame (wpE (defs₀ (F := F)) Variants.none c none) E (cc0__svgd_kernel i arg2 harg2 arg3 harg3 arg4 harg4 arg5 harg5 arg6 harg6) K := by
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_unfold [cc0__svgd_kernel]
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; (· iexact HS); ipureintro
  sl_unfold_run_names
  rw [read_writes_head_whole _ _ hz2]
  simp only [View.readAt_eq_ld, harg2.read_unread, harg3.read_unread, harg6.read_unread, View.ld_unit_zero (S := S2048x16) hz2,
    View.ld_unit_zero (S := S1024x16) hz2, View.ld_unit_zero (S := S2048x17) hz2]

set_option maxHeartbeats 1000000 in
theorem run_first (c : Dev nD) (i : grid0.Coords) (arg2 : Memref sig .tc .vmem S2048x16 .f32) (harg2 : arg2.IsWhole) (arg3 : Memref sig .tc .vmem S1024x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x17 .f32) (harg6 : arg6.IsWhole)
    (hc1 : cond1 i) (hc2 : ¬cond2 i)
    (x0 : Vec F S2048x16 .f32) (x1 : Vec F S1024x16 .f32) (x2 : Vec F S1x16 .f32) (x3 : Vec F S2048x16 .f32) (xs : Vec F S2048x17 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (x3) ∗ owns (c : Thread nD τ) arg6 fullShare (k0_pay3 x0 x1 (k0_pay2 (F := F)))) -∗ K ⟨⟩))
      ⊢ wp frame (wpE (defs₀ (F := F)) Variants.none c none) E (cc0__svgd_kernel i arg2 harg2 arg3 harg3 arg4 harg4 arg5 harg5 arg6 harg6) K := by
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_unfold [cc0__svgd_kernel]
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; (· iexact HS); ipureintro
  sl_unfold_run_names
  rw [read_writes_head_whole _ _ hz2]
  simp only [View.readAt_eq_ld, harg2.read_unread, harg3.read_unread, View.ld_unit_zero (S := S2048x16) hz2,
    View.ld_unit_zero (S := S1024x16) hz2, View.readCov_unit_zero (S := S2048x17) _ hz2]

set_option maxHeartbeats 1000000 in
theorem run_last (c : Dev nD) (i : grid0.Coords) (arg2 : Memref sig .tc .vmem S2048x16 .f32) (harg2 : arg2.IsWhole) (arg3 : Memref sig .tc .vmem S1024x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x17 .f32) (harg6 : arg6.IsWhole)
    (hc1 : ¬cond1 i) (hc2 : cond2 i)
    (x0 : Vec F S2048x16 .f32) (x1 : Vec F S1024x16 .f32) (x2 : Vec F S1x16 .f32) (x3 : Vec F S2048x16 .f32) (xs : Vec F S2048x17 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay1 x0 x2 (k0_pay3 x0 x1 xs)) ∗ owns (c : Thread nD τ) arg6 fullShare (k0_pay3 x0 x1 xs)) -∗ K ⟨⟩))
      ⊢ wp frame (wpE (defs₀ (F := F)) Variants.none c none) E (cc0__svgd_kernel i arg2 harg2 arg3 harg3 arg4 harg4 arg5 harg5 arg6 harg6) K := by
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_unfold [cc0__svgd_kernel]
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; (· iexact H3); ipureintro
    sl_unfold_run_names
    rw [read_writes_head_whole _ _ hz2]
    simp only [View.readAt_eq_ld, harg2.read_unread, harg3.read_unread, harg4.read_unread, harg6.read_unread, View.ld_unit_zero (S := S2048x16) hz2,
      View.ld_unit_zero (S := S1024x16) hz2, View.ld_unit_zero (S := S2048x17) hz2, View.ld_unit_zero (S := S1x16) hz2, View.readCov_unit_zero (S := S2048x17) _ hz2]
  iexists _; isplitr; swap; (· iexact HS); ipureintro
  sl_unfold_run_names
  rw [read_writes_head_whole _ _ hz2]
  simp only [View.readAt_eq_ld, harg2.read_unread, harg3.read_unread, harg6.read_unread, View.ld_unit_zero (S := S2048x16) hz2,
    View.ld_unit_zero (S := S1024x16) hz2, View.ld_unit_zero (S := S2048x17) hz2]

end Cert.Kernel.Hand

end
-- ==== Proof.KernelData.lean ====
/-
  The blocked program's launch, point by point: what each staging buffer and the accumulator hold after every grid point.

  The grid has 2 row blocks × 4 column blocks, visited row block by row block: point t = 4·I + J. The rows' window, the
  columns' window and the mean's window are inputs — the first two are blocks of ONE array, the particles, which they
  hold at complementary half shares — and each finds its block in its buffer at every point, fetched there or not. The
  accumulator after point t is the program's update of the accumulator after point t - 1 from the point's two blocks,
  starting again from zero whenever J = 0. The result's window is idle until J = 3, where its buffer takes the
  program's closing formula of the rows, the mean and the full accumulator, and is written back.
-/
import proofs.«158856_j48387101557205_2_alg».proof.Proof.KernelCases
import Idealize.ShloMosaic.Lib.Pipeline.FrameBody
import Idealize.ShloMosaic.Lib.Pipeline.Value
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core `c`'s buffer contents when the region is entered: after the one host operation, the mean reshaped to a row. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its block in place holds its block at every point, fetched there or not. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The schedule, decided over the grid -/

/-- The first branch is taken at the points ≡ 0 (mod 4): the first column block of a row block. -/
theorem hcond1 : ∀ t : Fin cfg0.N, cond1 (grid0.coords t) ↔ t.val % 4 = 0 :=
  (by decide +kernel : ∀ t : Fin grid0.N, cond1 (grid0.coords t) ↔ t.val % 4 = 0)
/-- The second at the points ≡ 3 (mod 4): the last column block. -/
theorem hcond2 : ∀ t : Fin cfg0.N, cond2 (grid0.coords t) ↔ t.val % 4 = 3 :=
  (by decide +kernel : ∀ t : Fin grid0.N, cond2 (grid0.coords t) ↔ t.val % 4 = 3)
/-- The inputs are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The result's window is idle, and not written back, away from the last column block; live there. -/
theorem idle3 : ∀ t : Fin cfg0.N, ¬cond2 (grid0.coords t) → cfg0.idle 3 (grid0.coords t) = true := by decide +kernel
theorem noFlush3 : ∀ t : Fin cfg0.N, ¬cond2 (grid0.coords t) → (cfg0.win 3).flush t = false := by decide +kernel
theorem live3 : ∀ t : Fin cfg0.N, cond2 (grid0.coords t) → cfg0.idle 3 (grid0.coords t) = false := by decide +kernel

/-! ## The staging memrefs at a point -/

abbrev ms0 (t : Fin cfg0.N) : Memref sig .tc .vmem S2048x16 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x16 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x16 .f32 := win0_3.stage (cfg0.slots t 3)
abbrev hs3 (t : Fin cfg0.N) : (ms3 t).IsWhole := hstage0_3 ((cfg0.slots t 3).cast nbuf0_3)
/-- The accumulator: a whole scoped buffer of the kernel's own. -/
abbrev scM : Memref sig .tc .vmem S2048x17 .f32 := Memref.whole cc0_scratch0

/-! ## The accumulator after each point -/

/-- The accumulator after the body at point `n`: the program's update, from the point's row and column blocks, of the
    zero accumulator at the first column block of a row block and of the accumulator after point `n - 1` elsewhere. -/
def scrAt (c : Dev nD) : (n : ℕ) → n < cfg0.N → Vec F S2048x17 .f32
  | 0, hn => k0_pay3 (iblk m c 0 ⟨0, hn⟩) (iblk m c 1 ⟨0, hn⟩) (k0_pay2 (F := F))
  | n + 1, hn =>
    if (n + 1) % 4 = 0 then k0_pay3 (iblk m c 0 ⟨n + 1, hn⟩) (iblk m c 1 ⟨n + 1, hn⟩) (k0_pay2 (F := F))
    else k0_pay3 (iblk m c 0 ⟨n + 1, hn⟩) (iblk m c 1 ⟨n + 1, hn⟩) (scrAt c n (Nat.lt_of_succ_lt hn))

/-- At the first column block of a row block the update starts from zero. -/
theorem scrAt_first (c : Dev nD) (t : Fin cfg0.N) (h0 : t.val % 4 = 0) :
    scrAt m c t.val t.isLt = k0_pay3 (iblk m c 0 t) (iblk m c 1 t) (k0_pay2 (F := F)) := by
  obtain ⟨n, hn⟩ := t
  cases n with
  | zero => rfl
  | succ n => exact (if_pos h0)

/-- Elsewhere it starts from what the point before left. -/
theorem scrAt_next (c : Dev nD) (t : Fin cfg0.N) (h0 : ¬t.val % 4 = 0) :
    scrAt m c t.val t.isLt = k0_pay3 (iblk m c 0 t) (iblk m c 1 t) (scrAt m c (t.val - 1) (Nat.lt_of_le_of_lt (Nat.sub_le _ _) t.isLt)) := by
  obtain ⟨n, hn⟩ := t
  cases n with
  | zero => exact absurd (Nat.zero_mod _) h0
  | succ n => exact (if_neg h0)

/-- What the body leaves in the result's buffer at point `n`: the closing formula of the rows, the mean and the
    accumulator after the point (what is written back at the last column block; nothing reads it elsewhere). -/
def outAt (c : Dev nD) (n : ℕ) (hn : n < cfg0.N) : Vec F S2048x16 .f32 :=
  k0_pay1 (iblk m c 0 ⟨n, hn⟩) (iblk m c 2 ⟨n, hn⟩) (scrAt m c n hn)

/-- The invariant before position `n`: the accumulator at anything before the first point, at what the point before
    left afterwards. -/
def PhiS (c : Dev nD) : (n : ℕ) → n ≤ cfg0.N → sProp 𝕄
  | 0, _ => iprop(∃ d, owns (c : Thread nD τ) scM fullShare d)
  | n + 1, hn => owns (c : Thread nD τ) scM fullShare (scrAt m c n hn)

theorem PhiS_zero (c : Dev nD) (n : ℕ) (h : n ≤ cfg0.N) (hz : n = 0) :
    PhiS m c n h = iprop(∃ d, owns (c : Thread nD τ) scM fullShare d) := by
  subst hz; rfl
theorem PhiS_succ (c : Dev nD) (n : ℕ) (hn : n < cfg0.N) :
    PhiS m c (n + 1) hn = owns (c : Thread nD τ) scM fullShare (scrAt m c n hn) := rfl
theorem PhiS_pos (c : Dev nD) (n : ℕ) (h : n ≤ cfg0.N) (hz : n ≠ 0) :
    PhiS m c n h = owns (c : Thread nD τ) scM fullShare (scrAt m c (n - 1) (by omega)) := by
  cases n with
  | zero => exact absurd rfl hz
  | succ n => rfl

/-! ## The proof data -/

/-- The proof data of the pipeline on core `c`: the arrays as the region finds them; after the body each input's
    buffer at its block, the result's at `outAt`; the invariant `PhiS`; the particles held by the rows' window and the
    columns' window at the two halves of the full share, the mean's row at the full share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t.val t.isLt := by dsimp only [dats]
theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t)

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]
theorem leaves2 (c : Dev nD) (t : Fin cfg0.N) :
    (dats m 0 c).leavesExact 2 t = owns (c : Thread nD τ) (ms2 t) fullShare (iblk m c 2 t) := by
  unfold Dat.leavesExact; rw [live2 t, after2]

set_option maxHeartbeats 4000000 in
/-- The body at any point: each input's buffer holds its block; the point's residue mod 4 says which case it is in; the
    invariant hands the body the accumulator at what the point before left (at anything at the first point) and takes
    it back at this point's; the result's buffer comes back as found, or at the closing formula at the last column
    block; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, leaves0, leaves1, leaves2]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 4 = 0
  · have h1 : ¬t.val % 4 = 3 := by omega
    have hn2 : ¬cond2 (grid0.coords t) := fun h => h1 ((hcond2 t).mp h)
    rw [Dat.leavesExact_idle (dats m 0 c) 3 t (idle3 t hn2) (noFlush3 t hn2), scrAt_first m c t h0]
    by_cases hz : t.val = 0
    · rw [PhiS_castSucc m c t, PhiS_zero m c _ _ hz]
      iintro ⟨⟨%ds, HS⟩, Ho, ⟨%d0, H0⟩, ⟨%d1, H1⟩, ⟨%d2, H2⟩, ⟨%d3, H3⟩⟩
      iapply (run_first c (grid0.coords t) (ms0 t) (hs0 t) (ms1 t) (hs1 t) (ms2 t) (hs2 t) (ms3 t) (hs3 t) scM (Memref.isWhole_whole _)
        ((hcond1 t).mpr h0) hn2 (iblk m c 0 t) (iblk m c 1 t) (iblk m c 2 t) ((dats m 0 c).before 3 t d3) ds Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS]; · iexact HS
      isplitl [Ho]; · iexact Ho
      isplitl [H0]; · iexact H0
      isplitl [H1]; · iexact H1
      isplitl [H2]; · iexact H2
      iexists d3; iexact H3
    · rw [PhiS_castSucc m c t, PhiS_pos m c _ _ hz]
      iintro ⟨HS, Ho, ⟨%d0, H0⟩, ⟨%d1, H1⟩, ⟨%d2, H2⟩, ⟨%d3, H3⟩⟩
      iapply (run_first c (grid0.coords t) (ms0 t) (hs0 t) (ms1 t) (hs1 t) (ms2 t) (hs2 t) (ms3 t) (hs3 t) scM (Memref.isWhole_whole _)
        ((hcond1 t).mpr h0) hn2 (iblk m c 0 t) (iblk m c 1 t) (iblk m c 2 t) ((dats m 0 c).before 3 t d3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS]; · iexact HS
      isplitl [Ho]; · iexact Ho
      isplitl [H0]; · iexact H0
      isplitl [H1]; · iexact H1
      isplitl [H2]; · iexact H2
      iexists d3; iexact H3
  · have hz : t.val ≠ 0 := fun h => h0 (by rw [h])
    have hn1 : ¬cond1 (grid0.coords t) := fun h => h0 ((hcond1 t).mp h)
    rw [PhiS_castSucc m c t, PhiS_pos m c _ _ hz, scrAt_next m c t h0]
    by_cases h1 : t.val % 4 = 3
    · have hc2 : cond2 (grid0.coords t) := (hcond2 t).mpr h1
      rw [show (dats m 0 c).leavesExact 3 t = owns (c : Thread nD τ) (ms3 t) fullShare ((dats m 0 c).after 3 t) from by
        unfold Dat.leavesExact; rw [live3 t hc2], after3]
      unfold outAt
      rw [scrAt_next m c t h0]
      iintro ⟨HS, Ho, ⟨%d0, H0⟩, ⟨%d1, H1⟩, ⟨%d2, H2⟩, ⟨%d3, H3⟩⟩
      iapply (run_last c (grid0.coords t) (ms0 t) (hs0 t) (ms1 t) (hs1 t) (ms2 t) (hs2 t) (ms3 t) (hs3 t) scM (Memref.isWhole_whole _)
        hn1 hc2 (iblk m c 0 t) (iblk m c 1 t) (iblk m c 2 t) ((dats m 0 c).before 3 t d3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS]; · iexact HS
      isplitl [Ho]; · iexact Ho
      isplitl [H0]; · iexact H0
      isplitl [H1]; · iexact H1
      isplitl [H2]; · iexact H2
      iexact H3
    · have hn2 : ¬cond2 (grid0.coords t) := fun h => h1 ((hcond2 t).mp h)
      rw [Dat.leavesExact_idle (dats m 0 c) 3 t (idle3 t hn2) (noFlush3 t hn2)]
      iintro ⟨HS, Ho, ⟨%d0, H0⟩, ⟨%d1, H1⟩, ⟨%d2, H2⟩, ⟨%d3, H3⟩⟩
      iapply (run_mid c (grid0.coords t) (ms0 t) (hs0 t) (ms1 t) (hs1 t) (ms2 t) (hs2 t) (ms3 t) (hs3 t) scM (Memref.isWhole_whole _)
        hn1 hn2 (iblk m c 0 t) (iblk m c 1 t) (iblk m c 2 t) ((dats m 0 c).before 3 t d3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS]; · iexact HS
      isplitl [Ho]; · iexact Ho
      isplitl [H0]; · iexact H0
      isplitl [H1]; · iexact H1
      isplitl [H2]; · iexact H2
      iexists d3; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelLaunch.lean ====
/-
  The blocked program's run, for any float values: from any memory with zero semaphore counters every weakly fair
  execution of the host line and the region terminates, nothing faulting, and ends with each window's array at what
  the write-backs of the proof data leave in it and every other host buffer as the region found it. The particles
  are handed to two windows; the region holds them as two half shares, one per window, which only read. From the
  run: both arguments end as they were (the frame), and the result array ends at the proof data's final contents.
-/
import proofs.«158856_j48387101557205_2_alg».proof.Proof.KernelData
import Idealize.ShloMosaic.Lib.Pipeline.FrameBody
import Idealize.ShloMosaic.Lib.Pipeline.Value
import Idealize.ShloMosaic.Lib.Pipeline.Launch
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host line before the region -/

/-- The reshape writes its own result only: every other buffer reaches the region, and the end, as launched. -/
theorem not_written (b : Ref sig .tc) (hb : b ≠ main_v0) : ∀ op ∈ (hostOps0 (F := F)), Proc.devRef .tc b ∉ op.writes := by
  intro op hop
  simp only [List.mem_cons, List.mem_nil_iff, or_false] at hop
  rcases hop with rfl
  simp only [StableHlo.reshape_writes, Finset.mem_singleton]
  exact StableHlo.devRef_ne_of_ne hb

theorem V_arg0 (c : Dev nD) : V m c main_arg0 = m ((c : Thread nD τ).loc main_arg0) :=
  StableHlo.after_of_forall_not_mem (b := Proc.devRef .tc main_arg0) hostOps0 (fun b => m (c, b)) (not_written main_arg0 (by decide))
theorem V_arg1 (c : Dev nD) : V m c main_arg1 = m ((c : Thread nD τ).loc main_arg1) :=
  StableHlo.after_of_forall_not_mem (b := Proc.devRef .tc main_arg1) hostOps0 (fun b => m (c, b)) (not_written main_arg1 (by decide))

/-- @main is the host line, then the region: the region is entered at `V`. -/
theorem hmain : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub (by simp only [List.Forall]; repeat' constructor) main_chain

/-! ## The arrays at entry: the particles split between their two windows -/

/-- The buffers behind the windows' arrays, one by one: the particles, the mean's row, the result. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0)
          ∗ (((c : Thread nD τ).loc main_v0) ↦{fullShare} V m c main_v0)
          ∗ (((c : Thread nD τ).loc main_v1) ↦{fullShare} V m c main_v1)) :=
  bigSep_eq_bigSepL_of_eq [main_arg0, main_v0, main_v1] (by decide) (by decide) _

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Dat.arrays
  rw [arrBufs_eq, bigSep_W0]
  rw [(arr_whole0 0).set_eq_univ, (arr_whole0 2).set_eq_univ, (arr_whole0 3).set_eq_univ]
  iintro ⟨H0, H2, H3⟩
  ihave H01 := (pointsTo_share (PosShare.mem_left_op_right fullShare)).1 $$ H0
  icases H01 with ⟨Hl, Hr⟩
  isplitl [Hl]; · iexact Hl
  isplitl [Hr]; · iexact Hr
  isplitl [H2]; · iexact H2
  iexact H3

/-! ## The run -/

/-- The physical post: each window's array at the proof data's final contents, every bypassing host buffer as the
    region found it. -/
def QC : PUnit × MemSt nD τ sig (Elt F) → Prop := fun r =>
  ∀ c : Dev nD, (∀ w : Fin cfg0.W, r.2.mem ((cfg0.spec w).arr.view.loc (c : Thread nD τ)) = (dats m 0 c).arrAt w cfg0.N)
    ∧ ∀ b ∈ Pipeline.restRefs sig spec0, r.2.mem ((c : Thread nD τ).loc b) = V m c b

set_option backward.isDefEq.respectTransparency.types false in
theorem run_main : θ_run defs (onTc (τ := τ) (main (F := F))) ⟨m, fun _ => 0, ρ⟩ (QC m) :=
  Pipeline.θ_run_region_noSem_shared cfgs (dats m) () cellOf_inj 0 winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [show (dats m 0 c).Φ 0 = PhiS m c 0 (Nat.zero_le _) from rfl, PhiS_zero m c 0 _ rfl, scopedRest0_eq]
      simp only [scM, owns_whole]
      iintro ⟨-, H⟩; iexact H)
    (hout := fun c => by
      rw [show (dats m 0 c).Φ (Fin.last cfg0.N) = PhiS m c cfg0.N (le_refl _) from rfl,
        PhiS_pos m c _ _ (by have : cfg0.N = 8 := N_0; omega), scopedRest0_eq]
      simp only [scM, owns_whole]
      iintro H; isplitr; · iempintro
      iexists _; iexact H)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h => h)

/-- info: 'Cert.Kernel.Hand.run_main' depends on axioms: [propext, Classical.choice, Quot.sound] -/
#guard_msgs in #print axioms run_main

/-! ## The frame, and the result array -/

/-- THE FRAME, at any float values: the program runs to the end, faults nowhere, and both arguments end as they were —
    the particles by the library's account of an input window's array, the mean because the region bypasses it and the
    host line does not write it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_arg0 m c))),
     ((h c).2 main_arg1 (by decide)).trans (V_arg1 m c)⟩) (run_main m ρ)

/-- The run with the result array named: it ends at the proof data's final contents of the result's window. -/
theorem run_result : θ_run defs (onTc (τ := τ) (main (F := F))) ⟨m, fun _ => 0, ρ⟩ (fun r => ∀ c : Dev nD,
      r.2.mem ((c.tc : Thread nD τ).loc main_v1) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).1 3,
     ((h c).1 0).trans (((dats m 0 c).arrAt_in 0 rfl _).trans ((A_eq m c 0).trans (V_arg0 m c))),
     ((h c).2 main_arg1 (by decide)).trans (V_arg1 m c)⟩) (run_main m ρ)

end Cert.Kernel.Hand

end
-- ==== Proof.KernelIdealCases.lean ====
/-
  The blocked program's body, run once in each of its three cases, on any staging buffers.

  The body sees a block of 2048 rows (x0), a block of 1024 columns (x1), the mean as a row (x2), the result's block
  (x3) and the 2048 × 17 accumulator (xs). At the first column block it zeroes the accumulator before updating it; at
  every column block it replaces the accumulator by its update from the two blocks; at the last column block it also
  writes the result block formed from the rows, the mean and the full accumulator. Each run names what every buffer
  holds afterwards as the program's own pure terms of what it held before.
-/
import proofs.«158856_j48387101557205_2_alg».proof.Proof.Gen.KernelIdeal.Launch
import proofs.«158856_j48387101557205_2_alg».proof.Proof.Gen.KernelIdeal.Skeleton
import proofs.«158856_j48387101557205_2_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition — the column-block coordinate is zero — from the grid coordinates. -/
abbrev cond1 (i : grid0.Coords) : Prop := (Scalar.cmpi .ne (Scalar.extui (Scalar.cmpi .eq (BitVec.ofNat 32 (i 1).val) 0#32)) 0#32) = 1#1
/-- The second branch's condition — the column-block coordinate is the last. -/
abbrev cond2 (i : grid0.Coords) : Prop := k0_cond2 i = 1#1

/-- The zero offsets of a two-axis block. -/
theorem hz2 : (![0, 0] : Fin 2 → Nat) = fun _ => 0 := by funext a; fin_cases a <;> rfl

section ReadBack

variable {Val : EltTy → Type} [∀ e, Nonempty (Val e)] {S : Shape} {e : EltTy} {sg : RefSig} {κ : Kind} {sp : Space}

/-- After stores of which the LAST went through the whole block, a buffer reads back that store's value. -/
theorem read_writes_head_whole (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

end ReadBack

set_option maxHeartbeats 1000000 in
theorem run_mid (c : Dev nD) (i : grid0.Coords) (arg2 : Memref sig .tc .vmem S2048x16 .f32) (harg2 : arg2.IsWhole) (arg3 : Memref sig .tc .vmem S1024x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x17 .f32) (harg6 : arg6.IsWhole)
    (hc1 : ¬cond1 i) (hc2 : ¬cond2 i)
    (x0 : Vec F S2048x16 .f32) (x1 : Vec F S1024x16 .f32) (x2 : Vec F S1x16 .f32) (x3 : Vec F S2048x16 .f32) (xs : Vec F S2048x17 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (x3) ∗ owns (c : Thread nD τ) arg6 fullShare (k0_pay3 x0 x1 xs)) -∗ K ⟨⟩))
      ⊢ wp frame (wpE (defs₀ (F := F)) Variants.none c none) E (cc0__svgd_kernel i arg2 harg2 arg3 harg3 arg4 harg4 arg5 harg5 arg6 harg6) K := by
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_unfold [cc0__svgd_kernel]
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; (· iexact HS); ipureintro
  sl_unfold_run_names
  rw [read_writes_head_whole _ _ hz2]
  simp only [View.readAt_eq_ld, harg2.read_unread, harg3.read_unread, harg6.read_unread, View.ld_unit_zero (S := S2048x16) hz2,
    View.ld_unit_zero (S := S1024x16) hz2, View.ld_unit_zero (S := S2048x17) hz2]

set_option maxHeartbeats 1000000 in
theorem run_first (c : Dev nD) (i : grid0.Coords) (arg2 : Memref sig .tc .vmem S2048x16 .f32) (harg2 : arg2.IsWhole) (arg3 : Memref sig .tc .vmem S1024x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x17 .f32) (harg6 : arg6.IsWhole)
    (hc1 : cond1 i) (hc2 : ¬cond2 i)
    (x0 : Vec F S2048x16 .f32) (x1 : Vec F S1024x16 .f32) (x2 : Vec F S1x16 .f32) (x3 : Vec F S2048x16 .f32) (xs : Vec F S2048x17 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (x3) ∗ owns (c : Thread nD τ) arg6 fullShare (k0_pay3 x0 x1 (k0_pay2 (F := F)))) -∗ K ⟨⟩))
      ⊢ wp frame (wpE (defs₀ (F := F)) Variants.none c none) E (cc0__svgd_kernel i arg2 harg2 arg3 harg3 arg4 harg4 arg5 harg5 arg6 harg6) K := by
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_unfold [cc0__svgd_kernel]
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; (· iexact HS); ipureintro
  sl_unfold_run_names
  rw [read_writes_head_whole _ _ hz2]
  simp only [View.readAt_eq_ld, harg2.read_unread, harg3.read_unread, View.ld_unit_zero (S := S2048x16) hz2,
    View.ld_unit_zero (S := S1024x16) hz2, View.readCov_unit_zero (S := S2048x17) _ hz2]

set_option maxHeartbeats 1000000 in
theorem run_last (c : Dev nD) (i : grid0.Coords) (arg2 : Memref sig .tc .vmem S2048x16 .f32) (harg2 : arg2.IsWhole) (arg3 : Memref sig .tc .vmem S1024x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x17 .f32) (harg6 : arg6.IsWhole)
    (hc1 : ¬cond1 i) (hc2 : cond2 i)
    (x0 : Vec F S2048x16 .f32) (x1 : Vec F S1024x16 .f32) (x2 : Vec F S1x16 .f32) (x3 : Vec F S2048x16 .f32) (xs : Vec F S2048x17 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay1 x0 x2 (k0_pay3 x0 x1 xs)) ∗ owns (c : Thread nD τ) arg6 fullShare (k0_pay3 x0 x1 xs)) -∗ K ⟨⟩))
      ⊢ wp frame (wpE (defs₀ (F := F)) Variants.none c none) E (cc0__svgd_kernel i arg2 harg2 arg3 harg3 arg4 harg4 arg5 harg5 arg6 harg6) K := by
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_unfold [cc0__svgd_kernel]
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; (· iexact H3); ipureintro
    sl_unfold_run_names
    rw [read_writes_head_whole _ _ hz2]
    simp only [View.readAt_eq_ld, harg2.read_unread, harg3.read_unread, harg4.read_unread, harg6.read_unread, View.ld_unit_zero (S := S2048x16) hz2,
      View.ld_unit_zero (S := S1024x16) hz2, View.ld_unit_zero (S := S2048x17) hz2, View.ld_unit_zero (S := S1x16) hz2, View.readCov_unit_zero (S := S2048x17) _ hz2]
  iexists _; isplitr; swap; (· iexact HS); ipureintro
  sl_unfold_run_names
  rw [read_writes_head_whole _ _ hz2]
  simp only [View.readAt_eq_ld, harg2.read_unread, harg3.read_unread, harg6.read_unread, View.ld_unit_zero (S := S2048x16) hz2,
    View.ld_unit_zero (S := S1024x16) hz2, View.ld_unit_zero (S := S2048x17) hz2]

end Cert.KernelIdeal.Hand

end
-- ==== Proof.KernelIdealData.lean ====
/-
  The blocked program's launch, point by point: what each staging buffer and the accumulator hold after every grid point.

  The grid has 2 row blocks × 4 column blocks, visited row block by row block: point t = 4·I + J. The rows' window, the
  columns' window and the mean's window are inputs — the first two are blocks of ONE array, the particles, which they
  hold at complementary half shares — and each finds its block in its buffer at every point, fetched there or not. The
  accumulator after point t is the program's update of the accumulator after point t - 1 from the point's two blocks,
  starting again from zero whenever J = 0. The result's window is idle until J = 3, where its buffer takes the
  program's closing formula of the rows, the mean and the full accumulator, and is written back.
-/
import proofs.«158856_j48387101557205_2_alg».proof.Proof.KernelIdealCases
import Idealize.ShloMosaic.Lib.Pipeline.FrameBody
import Idealize.ShloMosaic.Lib.Pipeline.Value
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core `c`'s buffer contents when the region is entered: after the one host operation, the mean reshaped to a row. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its block in place holds its block at every point, fetched there or not. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The schedule, decided over the grid -/

/-- The first branch is taken at the points ≡ 0 (mod 4): the first column block of a row block. -/
theorem hcond1 : ∀ t : Fin cfg0.N, cond1 (grid0.coords t) ↔ t.val % 4 = 0 :=
  (by decide +kernel : ∀ t : Fin grid0.N, cond1 (grid0.coords t) ↔ t.val % 4 = 0)
/-- The second at the points ≡ 3 (mod 4): the last column block. -/
theorem hcond2 : ∀ t : Fin cfg0.N, cond2 (grid0.coords t) ↔ t.val % 4 = 3 :=
  (by decide +kernel : ∀ t : Fin grid0.N, cond2 (grid0.coords t) ↔ t.val % 4 = 3)
/-- The inputs are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The result's window is idle, and not written back, away from the last column block; live there. -/
theorem idle3 : ∀ t : Fin cfg0.N, ¬cond2 (grid0.coords t) → cfg0.idle 3 (grid0.coords t) = true := by decide +kernel
theorem noFlush3 : ∀ t : Fin cfg0.N, ¬cond2 (grid0.coords t) → (cfg0.win 3).flush t = false := by decide +kernel
theorem live3 : ∀ t : Fin cfg0.N, cond2 (grid0.coords t) → cfg0.idle 3 (grid0.coords t) = false := by decide +kernel

/-! ## The staging memrefs at a point -/

abbrev ms0 (t : Fin cfg0.N) : Memref sig .tc .vmem S2048x16 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x16 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x16 .f32 := win0_3.stage (cfg0.slots t 3)
abbrev hs3 (t : Fin cfg0.N) : (ms3 t).IsWhole := hstage0_3 ((cfg0.slots t 3).cast nbuf0_3)
/-- The accumulator: a whole scoped buffer of the kernel's own. -/
abbrev scM : Memref sig .tc .vmem S2048x17 .f32 := Memref.whole cc0_scratch0

/-! ## The accumulator after each point -/

/-- The accumulator after the body at point `n`: the program's update, from the point's row and column blocks, of the
    zero accumulator at the first column block of a row block and of the accumulator after point `n - 1` elsewhere. -/
def scrAt (c : Dev nD) : (n : ℕ) → n < cfg0.N → Vec F S2048x17 .f32
  | 0, hn => k0_pay3 (iblk m c 0 ⟨0, hn⟩) (iblk m c 1 ⟨0, hn⟩) (k0_pay2 (F := F))
  | n + 1, hn =>
    if (n + 1) % 4 = 0 then k0_pay3 (iblk m c 0 ⟨n + 1, hn⟩) (iblk m c 1 ⟨n + 1, hn⟩) (k0_pay2 (F := F))
    else k0_pay3 (iblk m c 0 ⟨n + 1, hn⟩) (iblk m c 1 ⟨n + 1, hn⟩) (scrAt c n (Nat.lt_of_succ_lt hn))

/-- At the first column block of a row block the update starts from zero. -/
theorem scrAt_first (c : Dev nD) (t : Fin cfg0.N) (h0 : t.val % 4 = 0) :
    scrAt m c t.val t.isLt = k0_pay3 (iblk m c 0 t) (iblk m c 1 t) (k0_pay2 (F := F)) := by
  obtain ⟨n, hn⟩ := t
  cases n with
  | zero => rfl
  | succ n => exact (if_pos h0)

/-- Elsewhere it starts from what the point before left. -/
theorem scrAt_next (c : Dev nD) (t : Fin cfg0.N) (h0 : ¬t.val % 4 = 0) :
    scrAt m c t.val t.isLt = k0_pay3 (iblk m c 0 t) (iblk m c 1 t) (scrAt m c (t.val - 1) (Nat.lt_of_le_of_lt (Nat.sub_le _ _) t.isLt)) := by
  obtain ⟨n, hn⟩ := t
  cases n with
  | zero => exact absurd (Nat.zero_mod _) h0
  | succ n => exact (if_neg h0)

/-- What the body leaves in the result's buffer at point `n`: the closing formula of the rows, the mean and the
    accumulator after the point (what is written back at the last column block; nothing reads it elsewhere). -/
def outAt (c : Dev nD) (n : ℕ) (hn : n < cfg0.N) : Vec F S2048x16 .f32 :=
  k0_pay1 (iblk m c 0 ⟨n, hn⟩) (iblk m c 2 ⟨n, hn⟩) (scrAt m c n hn)

/-- The invariant before position `n`: the accumulator at anything before the first point, at what the point before
    left afterwards. -/
def PhiS (c : Dev nD) : (n : ℕ) → n ≤ cfg0.N → sProp 𝕄
  | 0, _ => iprop(∃ d, owns (c : Thread nD τ) scM fullShare d)
  | n + 1, hn => owns (c : Thread nD τ) scM fullShare (scrAt m c n hn)

theorem PhiS_zero (c : Dev nD) (n : ℕ) (h : n ≤ cfg0.N) (hz : n = 0) :
    PhiS m c n h = iprop(∃ d, owns (c : Thread nD τ) scM fullShare d) := by
  subst hz; rfl
theorem PhiS_succ (c : Dev nD) (n : ℕ) (hn : n < cfg0.N) :
    PhiS m c (n + 1) hn = owns (c : Thread nD τ) scM fullShare (scrAt m c n hn) := rfl
theorem PhiS_pos (c : Dev nD) (n : ℕ) (h : n ≤ cfg0.N) (hz : n ≠ 0) :
    PhiS m c n h = owns (c : Thread nD τ) scM fullShare (scrAt m c (n - 1) (by omega)) := by
  cases n with
  | zero => exact absurd rfl hz
  | succ n => rfl

/-! ## The proof data -/

/-- The proof data of the pipeline on core `c`: the arrays as the region finds them; after the body each input's
    buffer at its block, the result's at `outAt`; the invariant `PhiS`; the particles held by the rows' window and the
    columns' window at the two halves of the full share, the mean's row at the full share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t.val t.isLt := by dsimp only [dats]
theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t)

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]
theorem leaves2 (c : Dev nD) (t : Fin cfg0.N) :
    (dats m 0 c).leavesExact 2 t = owns (c : Thread nD τ) (ms2 t) fullShare (iblk m c 2 t) := by
  unfold Dat.leavesExact; rw [live2 t, after2]

set_option maxHeartbeats 4000000 in
/-- The body at any point: each input's buffer holds its block; the point's residue mod 4 says which case it is in; the
    invariant hands the body the accumulator at what the point before left (at anything at the first point) and takes
    it back at this point's; the result's buffer comes back as found, or at the closing formula at the last column
    block; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, leaves0, leaves1, leaves2]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 4 = 0
  · have h1 : ¬t.val % 4 = 3 := by omega
    have hn2 : ¬cond2 (grid0.coords t) := fun h => h1 ((hcond2 t).mp h)
    rw [Dat.leavesExact_idle (dats m 0 c) 3 t (idle3 t hn2) (noFlush3 t hn2), scrAt_first m c t h0]
    by_cases hz : t.val = 0
    · rw [PhiS_castSucc m c t, PhiS_zero m c _ _ hz]
      iintro ⟨⟨%ds, HS⟩, Ho, ⟨%d0, H0⟩, ⟨%d1, H1⟩, ⟨%d2, H2⟩, ⟨%d3, H3⟩⟩
      iapply (run_first c (grid0.coords t) (ms0 t) (hs0 t) (ms1 t) (hs1 t) (ms2 t) (hs2 t) (ms3 t) (hs3 t) scM (Memref.isWhole_whole _)
        ((hcond1 t).mpr h0) hn2 (iblk m c 0 t) (iblk m c 1 t) (iblk m c 2 t) ((dats m 0 c).before 3 t d3) ds Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS]; · iexact HS
      isplitl [Ho]; · iexact Ho
      isplitl [H0]; · iexact H0
      isplitl [H1]; · iexact H1
      isplitl [H2]; · iexact H2
      iexists d3; iexact H3
    · rw [PhiS_castSucc m c t, PhiS_pos m c _ _ hz]
      iintro ⟨HS, Ho, ⟨%d0, H0⟩, ⟨%d1, H1⟩, ⟨%d2, H2⟩, ⟨%d3, H3⟩⟩
      iapply (run_first c (grid0.coords t) (ms0 t) (hs0 t) (ms1 t) (hs1 t) (ms2 t) (hs2 t) (ms3 t) (hs3 t) scM (Memref.isWhole_whole _)
        ((hcond1 t).mpr h0) hn2 (iblk m c 0 t) (iblk m c 1 t) (iblk m c 2 t) ((dats m 0 c).before 3 t d3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS]; · iexact HS
      isplitl [Ho]; · iexact Ho
      isplitl [H0]; · iexact H0
      isplitl [H1]; · iexact H1
      isplitl [H2]; · iexact H2
      iexists d3; iexact H3
  · have hz : t.val ≠ 0 := fun h => h0 (by rw [h])
    have hn1 : ¬cond1 (grid0.coords t) := fun h => h0 ((hcond1 t).mp h)
    rw [PhiS_castSucc m c t, PhiS_pos m c _ _ hz, scrAt_next m c t h0]
    by_cases h1 : t.val % 4 = 3
    · have hc2 : cond2 (grid0.coords t) := (hcond2 t).mpr h1
      rw [show (dats m 0 c).leavesExact 3 t = owns (c : Thread nD τ) (ms3 t) fullShare ((dats m 0 c).after 3 t) from by
        unfold Dat.leavesExact; rw [live3 t hc2], after3]
      unfold outAt
      rw [scrAt_next m c t h0]
      iintro ⟨HS, Ho, ⟨%d0, H0⟩, ⟨%d1, H1⟩, ⟨%d2, H2⟩, ⟨%d3, H3⟩⟩
      iapply (run_last c (grid0.coords t) (ms0 t) (hs0 t) (ms1 t) (hs1 t) (ms2 t) (hs2 t) (ms3 t) (hs3 t) scM (Memref.isWhole_whole _)
        hn1 hc2 (iblk m c 0 t) (iblk m c 1 t) (iblk m c 2 t) ((dats m 0 c).before 3 t d3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS]; · iexact HS
      isplitl [Ho]; · iexact Ho
      isplitl [H0]; · iexact H0
      isplitl [H1]; · iexact H1
      isplitl [H2]; · iexact H2
      iexact H3
    · have hn2 : ¬cond2 (grid0.coords t) := fun h => h1 ((hcond2 t).mp h)
      rw [Dat.leavesExact_idle (dats m 0 c) 3 t (idle3 t hn2) (noFlush3 t hn2)]
      iintro ⟨HS, Ho, ⟨%d0, H0⟩, ⟨%d1, H1⟩, ⟨%d2, H2⟩, ⟨%d3, H3⟩⟩
      iapply (run_mid c (grid0.coords t) (ms0 t) (hs0 t) (ms1 t) (hs1 t) (ms2 t) (hs2 t) (ms3 t) (hs3 t) scM (Memref.isWhole_whole _)
        hn1 hn2 (iblk m c 0 t) (iblk m c 1 t) (iblk m c 2 t) ((dats m 0 c).before 3 t d3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS]; · iexact HS
      isplitl [Ho]; · iexact Ho
      isplitl [H0]; · iexact H0
      isplitl [H1]; · iexact H1
      isplitl [H2]; · iexact H2
      iexists d3; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealLaunch.lean ====
/-
  The blocked program's run, for any float values: from any memory with zero semaphore counters every weakly fair
  execution of the host line and the region terminates, nothing faulting, and ends with each window's array at what
  the write-backs of the proof data leave in it and every other host buffer as the region found it. The particles
  are handed to two windows; the region holds them as two half shares, one per window, which only read. From the
  run: both arguments end as they were (the frame), and the result array ends at the proof data's final contents.
-/
import proofs.«158856_j48387101557205_2_alg».proof.Proof.KernelIdealData
import Idealize.ShloMosaic.Lib.Pipeline.FrameBody
import Idealize.ShloMosaic.Lib.Pipeline.Value
import Idealize.ShloMosaic.Lib.Pipeline.Launch
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host line before the region -/

/-- The reshape writes its own result only: every other buffer reaches the region, and the end, as launched. -/
theorem not_written (b : Ref sig .tc) (hb : b ≠ main_v0) : ∀ op ∈ (hostOps0 (F := F)), Proc.devRef .tc b ∉ op.writes := by
  intro op hop
  simp only [List.mem_cons, List.mem_nil_iff, or_false] at hop
  rcases hop with rfl
  simp only [StableHlo.reshape_writes, Finset.mem_singleton]
  exact StableHlo.devRef_ne_of_ne hb

theorem V_arg0 (c : Dev nD) : V m c main_arg0 = m ((c : Thread nD τ).loc main_arg0) :=
  StableHlo.after_of_forall_not_mem (b := Proc.devRef .tc main_arg0) hostOps0 (fun b => m (c, b)) (not_written main_arg0 (by decide))
theorem V_arg1 (c : Dev nD) : V m c main_arg1 = m ((c : Thread nD τ).loc main_arg1) :=
  StableHlo.after_of_forall_not_mem (b := Proc.devRef .tc main_arg1) hostOps0 (fun b => m (c, b)) (not_written main_arg1 (by decide))

/-- @main is the host line, then the region: the region is entered at `V`. -/
theorem hmain : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub (by simp only [List.Forall]; repeat' constructor) main_chain

/-! ## The arrays at entry: the particles split between their two windows -/

/-- The buffers behind the windows' arrays, one by one: the particles, the mean's row, the result. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0)
          ∗ (((c : Thread nD τ).loc main_v0) ↦{fullShare} V m c main_v0)
          ∗ (((c : Thread nD τ).loc main_v1) ↦{fullShare} V m c main_v1)) :=
  bigSep_eq_bigSepL_of_eq [main_arg0, main_v0, main_v1] (by decide) (by decide) _

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Dat.arrays
  rw [arrBufs_eq, bigSep_W0]
  rw [(arr_whole0 0).set_eq_univ, (arr_whole0 2).set_eq_univ, (arr_whole0 3).set_eq_univ]
  iintro ⟨H0, H2, H3⟩
  ihave H01 := (pointsTo_share (PosShare.mem_left_op_right fullShare)).1 $$ H0
  icases H01 with ⟨Hl, Hr⟩
  isplitl [Hl]; · iexact Hl
  isplitl [Hr]; · iexact Hr
  isplitl [H2]; · iexact H2
  iexact H3

/-! ## The run -/

/-- The physical post: each window's array at the proof data's final contents, every bypassing host buffer as the
    region found it. -/
def QC : PUnit × MemSt nD τ sig (Elt F) → Prop := fun r =>
  ∀ c : Dev nD, (∀ w : Fin cfg0.W, r.2.mem ((cfg0.spec w).arr.view.loc (c : Thread nD τ)) = (dats m 0 c).arrAt w cfg0.N)
    ∧ ∀ b ∈ Pipeline.restRefs sig spec0, r.2.mem ((c : Thread nD τ).loc b) = V m c b

set_option backward.isDefEq.respectTransparency.types false in
theorem run_main : θ_run defs (onTc (τ := τ) (main (F := F))) ⟨m, fun _ => 0, ρ⟩ (QC m) :=
  Pipeline.θ_run_region_noSem_shared cfgs (dats m) () cellOf_inj 0 winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [show (dats m 0 c).Φ 0 = PhiS m c 0 (Nat.zero_le _) from rfl, PhiS_zero m c 0 _ rfl, scopedRest0_eq]
      simp only [scM, owns_whole]
      iintro ⟨-, H⟩; iexact H)
    (hout := fun c => by
      rw [show (dats m 0 c).Φ (Fin.last cfg0.N) = PhiS m c cfg0.N (le_refl _) from rfl,
        PhiS_pos m c _ _ (by have : cfg0.N = 8 := N_0; omega), scopedRest0_eq]
      simp only [scM, owns_whole]
      iintro H; isplitr; · iempintro
      iexists _; iexact H)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h => h)

/-- info: 'Cert.KernelIdeal.Hand.run_main' depends on axioms: [propext, Classical.choice, Quot.sound] -/
#guard_msgs in #print axioms run_main

/-! ## The frame, and the result array -/

/-- THE FRAME, at any float values: the program runs to the end, faults nowhere, and both arguments end as they were —
    the particles by the library's account of an input window's array, the mean because the region bypasses it and the
    host line does not write it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_arg0 m c))),
     ((h c).2 main_arg1 (by decide)).trans (V_arg1 m c)⟩) (run_main m ρ)

/-- The run with the result array named: it ends at the proof data's final contents of the result's window. -/
theorem run_result : θ_run defs (onTc (τ := τ) (main (F := F))) ⟨m, fun _ => 0, ρ⟩ (fun r => ∀ c : Dev nD,
      r.2.mem ((c.tc : Thread nD τ).loc main_v1) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).1 3,
     ((h c).1 0).trans (((dats m 0 c).arrAt_in 0 rfl _).trans ((A_eq m c 0).trans (V_arg0 m c))),
     ((h c).2 main_arg1 (by decide)).trans (V_arg1 m c)⟩) (run_main m ρ)

end Cert.KernelIdeal.Hand

end
-- ==== Proof.Spec.lean ====
/-
  The Stein variational direction of a cloud of 4096 particles in dimension 16 under a Gaussian target with mean `mu`,
  written twice on the extended reals.

  With the Gaussian kernel g(a, b) = exp(-|x_a - x_b|² / 2) and the target's score mu - x_b, the direction at particle a is

      ( Σ_b g(a, b) · (mu - x_b)  +  Σ_b (x_a - x_b) · g(b, a) ) / 4096 .

  `directionAt` is this formula in the order the plain program computes it: the squared distance as a sum of squared
  differences, the score as the negated difference, the second sum over the FIRST argument of the kernel, and the
  quotients by 2, by 1 and by 4096 as divisions.

  `directionExpAt` is the same number in the order the blocked program computes it: the squared distance expanded as
  |x_a|² + |x_b|² - 2 x_a·x_b and clamped at zero, one row sum Σ_b g(a, b) and one row moment Σ_b g(a, b) x_b,
  combined as ((mu + x_a) · rowsum - 2 · moment) / 4096. The two agree because g is symmetric and every entry is a real
  number; that they agree is proved elsewhere, over the reals.
-/
import Idealize.ShloMosaic.PureOps.Ideal
import Idealize.ShloMosaic.Lib.ValueIdx

noncomputable section

namespace Cert.Stein

open Idealize.ShloMosaic Idealize.ShloMosaic.ValueIdx

/-- The particle array's shape, 4096 particles of 16 coordinates; the mean's; a block of 2048 particles, of 1024
    particles; the mean as a row. -/
abbrev SX : Shape := ⟨2, ![4096, 16]⟩
abbrev SMu : Shape := ⟨1, ![16]⟩
abbrev SRows : Shape := ⟨2, ![2048, 16]⟩
abbrev SCols : Shape := ⟨2, ![1024, 16]⟩
abbrev SMuRow : Shape := ⟨2, ![1, 16]⟩

variable (x : SX.Idx → EReal) (mu : SMu.Idx → EReal)

/-! ## The plain order -/

/-- |x_a - x_b|² as the sum of the squared coordinate differences. -/
def sqDist (a b : Fin 4096) : EReal :=
  ∑ d : Fin 16, (x (ix2 a d) - x (ix2 b d)) * (x (ix2 a d) - x (ix2 b d))

/-- The Gaussian kernel exp(-|x_a - x_b|² / 2). -/
def gauss (a b : Fin 4096) : EReal :=
  Ideal.exp (Ideal.div (-(sqDist x a b)) ((2 : ℝ) : EReal))

/-- The direction at particle `a`, coordinate `d`: the kernel-weighted scores plus the kernel's gradients, over 4096. -/
def directionAt (a : Fin 4096) (d : Fin 16) : EReal :=
  Ideal.div
    ((∑ b : Fin 4096, gauss x a b * (-(x (ix2 b d) - mu (ix1 d))))
      + (∑ b : Fin 4096, (-(Ideal.div (x (ix2 b d) - x (ix2 a d)) ((1 : ℝ) : EReal))) * gauss x b a))
    ((4096 : ℝ) : EReal)

/-- The direction as an array. -/
def direction : SX.Idx → EReal := fun p => directionAt x mu (p 0) (p 1)

/-! ## The blocked order -/

/-- |x_a|². -/
def sqNorm (a : Fin 4096) : EReal := ∑ d : Fin 16, x (ix2 a d) * x (ix2 a d)

/-- |x_a - x_b|² expanded, Σ_d (-2 x_a,d) x_b,d + |x_a|² · 1 + 1 · |x_b|², clamped at zero. -/
def sqDistExp (a b : Fin 4096) : EReal :=
  max ((∑ d : Fin 16, (x (ix2 a d) * ((-2 : ℝ) : EReal)) * x (ix2 b d))
        + sqNorm x a * ((1 : ℝ) : EReal) + ((1 : ℝ) : EReal) * sqNorm x b) 0

/-- The Gaussian kernel from the expanded distance, exp(sqDistExp · (-1/2)). -/
def gaussExp (a b : Fin 4096) : EReal :=
  Ideal.exp (sqDistExp x a b * ((-(1 / 2) : ℝ) : EReal))

/-- Σ_b g(a, b), each term against the unit coordinate. -/
def rowSum (a : Fin 4096) : EReal := ∑ b : Fin 4096, gaussExp x a b * ((1 : ℝ) : EReal)

/-- Σ_b g(a, b) · x_b,d. -/
def rowMoment (a : Fin 4096) (d : Fin 16) : EReal := ∑ b : Fin 4096, gaussExp x a b * x (ix2 b d)

/-- ((mu_d + x_a,d · 1) · rowsum_a - moment_a,d · 2) · (1 / 4096). -/
def directionExpAt (a : Fin 4096) (d : Fin 16) : EReal :=
  ((mu (ix1 d) + x (ix2 a d) * ((1 : ℝ) : EReal)) * rowSum x a - rowMoment x a d * ((2 : ℝ) : EReal))
    * ((1 / 4096 : ℝ) : EReal)

/-! ## Blocks of the particle array -/

/-- Rows 2048·I … 2048·I + 2047 of the particle array. -/
def rowBlock (I : Fin 2) : SRows.Idx → EReal := fun y =>
  x (ix2 (⟨2048 * I.val + (y 0).val, by have h : (y 0).val < 2048 := (y 0).isLt; have := I.isLt; omega⟩ : Fin 4096)
        (⟨(y 1).val, (y 1).isLt⟩ : Fin 16))

/-- Rows 1024·J … 1024·J + 1023 of the particle array. -/
def colBlock (J : Fin 4) : SCols.Idx → EReal := fun y =>
  x (ix2 (⟨1024 * J.val + (y 0).val, by have h : (y 0).val < 1024 := (y 0).isLt; have := J.isLt; omega⟩ : Fin 4096)
        (⟨(y 1).val, (y 1).isLt⟩ : Fin 16))

/-- The mean as a 1 × 16 row. -/
def muRow : SMuRow.Idx → EReal := fun y => mu (ix1 (⟨(y 1).val, (y 1).isLt⟩ : Fin 16))

end Cert.Stein

end
-- ==== Proof.Accum.lean ====
/-
  What the blocked program keeps between column blocks: for a block of 2048 rows, the 2048 × 17 accumulator after the
  first, second, third and fourth block of 1024 columns — columns 0–15 the running row moments Σ_b g(a, b) x_b, column 16
  the running row sum Σ_b g(a, b) — each the program's own update of the one before, from zero; and the block of the
  result the program forms from the last of them.
-/
import proofs.«158856_j48387101557205_2_alg».proof.Proof.Spec
import proofs.«158856_j48387101557205_2_alg».proof.Proof.Gen.KernelIdeal.Skeleton

noncomputable section

namespace Cert.Stein

open Idealize.ShloMosaic Cert.KernelIdeal Cert.KernelIdeal.Gen

variable (x : SX.Idx → EReal) (mu : SMu.Idx → EReal)

/-- The accumulator of row block `I` after column block 0: the update of the zero accumulator. -/
def acc0 (I : Fin 2) : Vec Ideal S2048x17 .f32 :=
  k0_pay3 (F := Ideal) (rowBlock x I) (colBlock x 0) (k0_pay2 (F := Ideal))
/-- After column block 1. -/
def acc1 (I : Fin 2) : Vec Ideal S2048x17 .f32 := k0_pay3 (F := Ideal) (rowBlock x I) (colBlock x 1) (acc0 x I)
/-- After column block 2. -/
def acc2 (I : Fin 2) : Vec Ideal S2048x17 .f32 := k0_pay3 (F := Ideal) (rowBlock x I) (colBlock x 2) (acc1 x I)
/-- After column block 3: every column has been seen. -/
def acc3 (I : Fin 2) : Vec Ideal S2048x17 .f32 := k0_pay3 (F := Ideal) (rowBlock x I) (colBlock x 3) (acc2 x I)

/-- The block of the result for row block `I`: the program's closing formula of the full accumulator. -/
def outBlock (I : Fin 2) : Vec Ideal S2048x16 .f32 :=
  k0_pay1 (F := Ideal) (rowBlock x I) (muRow mu) (acc3 x I)

end Cert.Stein

end
-- ==== Proof.PayloadLiterals.lean ====
/-
  The five float words the blocked program spells besides zero, as the real numbers they denote on the extended reals:
  1, 2, -2, -1/2 and 1/4096. Each is an exact power of two (up to sign), so its word has a zero significand and the
  value is ±2^(exponent - 127).
-/
import Idealize.ShloMosaic.PureOps.Ideal

noncomputable section

namespace Cert.Stein

open Idealize.ShloMosaic

/-- The word of `1.0` denotes the real 1. -/
theorem lit_one : Ideal.ofBits .f32 0x3F800000#32 = ((1 : ℝ) : EReal) := by
  simp [Ideal.ofBits, Ideal.ieee, -EReal.coe_mul]; norm_num

/-- The word of `2.0` denotes the real 2. -/
theorem lit_two : Ideal.ofBits .f32 0x40000000#32 = ((2 : ℝ) : EReal) := by
  simp [Ideal.ofBits, Ideal.ieee, -EReal.coe_mul]; norm_num

/-- The word of `-2.0` denotes the real -2. -/
theorem lit_negTwo : Ideal.ofBits .f32 0xC0000000#32 = ((-2 : ℝ) : EReal) := by
  simp [Ideal.ofBits, Ideal.ieee, -EReal.coe_mul]; norm_num

/-- The word of `-0.5` denotes the real -(1/2). -/
theorem lit_negHalf : Ideal.ofBits .f32 0xBF000000#32 = ((-(1 / 2) : ℝ) : EReal) := by
  simp [Ideal.ofBits, Ideal.ieee, -EReal.coe_mul]; norm_num

/-- The word of `2.44140625e-4` denotes the real 1/4096. -/
theorem lit_inv4096 : Ideal.ofBits .f32 0x39800000#32 = ((1 / 4096 : ℝ) : EReal) := by
  simp [Ideal.ofBits, Ideal.ieee, -EReal.coe_mul]; norm_num

end Cert.Stein

end
-- ==== Proof.PayloadLayout.lean ====
/-
  Layout operations read at an index given by coordinates, in the forms the blocked program meets: a vector reshaped
  to a column, a column broadcast across columns, and a row of 16 coordinates extended by one or two unit columns (a
  concatenation along axis 1) read in each of its pieces.
-/
import Idealize.ShloMosaic.Lib.Pipeline.Value
import Idealize.ShloMosaic.Lib.ValueIdx
import Idealize.ShloMosaic.Lib.ValueLayout

namespace Cert.Stein

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sixteen columns, then a unit column, then another: read in each piece -/

/-- Columns 0–15 of `[x₁ | x₂ | x₃]` are `x₁`'s. -/
theorem concat3_cols_lo {n : ℕ} (x₁ : (⟨2, ![n, 16]⟩ : Shape).Idx → α) (x₂ x₃ : (⟨2, ![n, 1]⟩ : Shape).Idx → α)
    (h : Shape.Concatenates [(⟨2, ![n, 16]⟩ : Shape), ⟨2, ![n, 1]⟩, ⟨2, ![n, 1]⟩] ⟨2, ![n, 18]⟩ 1)
    (r : Fin n) (k : Fin 18) (d : Fin 16) (hk : k.val = d.val) :
    concatenate ⟨2, ![n, 18]⟩ 1 [⟨⟨2, ![n, 16]⟩, x₁⟩, ⟨⟨2, ![n, 1]⟩, x₂⟩, ⟨⟨2, ![n, 1]⟩, x₃⟩] h (ix2 r k) = x₁ (ix2 r d) :=
  concatenate_apply_piece 1 [⟨⟨2, ![n, 16]⟩, x₁⟩, ⟨⟨2, ![n, 1]⟩, x₂⟩, ⟨⟨2, ![n, 1]⟩, x₃⟩] h (ix2 r k) 0 (by simp) _ x₁ rfl rfl 0 rfl (ix2 r d)
    (fun b hb => by match b with | ⟨0, _⟩ => rfl | ⟨1, _⟩ => exact absurd rfl hb)
    (by show 0 + d.val = k.val; omega)

/-- Column 16 of `[x₁ | x₂ | x₃]` is `x₂`. -/
theorem concat3_cols_16 {n : ℕ} (x₁ : (⟨2, ![n, 16]⟩ : Shape).Idx → α) (x₂ x₃ : (⟨2, ![n, 1]⟩ : Shape).Idx → α)
    (h : Shape.Concatenates [(⟨2, ![n, 16]⟩ : Shape), ⟨2, ![n, 1]⟩, ⟨2, ![n, 1]⟩] ⟨2, ![n, 18]⟩ 1)
    (r : Fin n) (k : Fin 18) (hk : k.val = 16) :
    concatenate ⟨2, ![n, 18]⟩ 1 [⟨⟨2, ![n, 16]⟩, x₁⟩, ⟨⟨2, ![n, 1]⟩, x₂⟩, ⟨⟨2, ![n, 1]⟩, x₃⟩] h (ix2 r k)
      = x₂ (ix2 r (0 : Fin 1)) :=
  concatenate_apply_piece 1 [⟨⟨2, ![n, 16]⟩, x₁⟩, ⟨⟨2, ![n, 1]⟩, x₂⟩, ⟨⟨2, ![n, 1]⟩, x₃⟩] h (ix2 r k) 1 (by simp) _ x₂ rfl rfl 16 rfl (ix2 r (0 : Fin 1))
    (fun b hb => by match b with | ⟨0, _⟩ => rfl | ⟨1, _⟩ => exact absurd rfl hb)
    (by show 16 + 0 = k.val; omega)

/-- Column 17 of `[x₁ | x₂ | x₃]` is `x₃`. -/
theorem concat3_cols_17 {n : ℕ} (x₁ : (⟨2, ![n, 16]⟩ : Shape).Idx → α) (x₂ x₃ : (⟨2, ![n, 1]⟩ : Shape).Idx → α)
    (h : Shape.Concatenates [(⟨2, ![n, 16]⟩ : Shape), ⟨2, ![n, 1]⟩, ⟨2, ![n, 1]⟩] ⟨2, ![n, 18]⟩ 1)
    (r : Fin n) (k : Fin 18) (hk : k.val = 17) :
    concatenate ⟨2, ![n, 18]⟩ 1 [⟨⟨2, ![n, 16]⟩, x₁⟩, ⟨⟨2, ![n, 1]⟩, x₂⟩, ⟨⟨2, ![n, 1]⟩, x₃⟩] h (ix2 r k)
      = x₃ (ix2 r (0 : Fin 1)) :=
  concatenate_apply_piece 1 [⟨⟨2, ![n, 16]⟩, x₁⟩, ⟨⟨2, ![n, 1]⟩, x₂⟩, ⟨⟨2, ![n, 1]⟩, x₃⟩] h (ix2 r k) 2 (by simp) _ x₃ rfl rfl 17 rfl (ix2 r (0 : Fin 1))
    (fun b hb => by match b with | ⟨0, _⟩ => rfl | ⟨1, _⟩ => exact absurd rfl hb)
    (by show 17 + 0 = k.val; omega)

/-! ## Sixteen columns, then a unit column -/

/-- Columns 0–15 of `[x₁ | x₂]` are `x₁`'s. -/
theorem concat2_cols_lo {n : ℕ} (x₁ : (⟨2, ![n, 16]⟩ : Shape).Idx → α) (x₂ : (⟨2, ![n, 1]⟩ : Shape).Idx → α)
    (h : Shape.Concatenates [(⟨2, ![n, 16]⟩ : Shape), ⟨2, ![n, 1]⟩] ⟨2, ![n, 17]⟩ 1)
    (r : Fin n) (k : Fin 17) (d : Fin 16) (hk : k.val = d.val) :
    concatenate ⟨2, ![n, 17]⟩ 1 [⟨⟨2, ![n, 16]⟩, x₁⟩, ⟨⟨2, ![n, 1]⟩, x₂⟩] h (ix2 r k) = x₁ (ix2 r d) :=
  concatenate_apply_piece 1 [⟨⟨2, ![n, 16]⟩, x₁⟩, ⟨⟨2, ![n, 1]⟩, x₂⟩] h (ix2 r k) 0 (by simp) _ x₁ rfl rfl 0 rfl (ix2 r d)
    (fun b hb => by match b with | ⟨0, _⟩ => rfl | ⟨1, _⟩ => exact absurd rfl hb)
    (by show 0 + d.val = k.val; omega)

/-- Column 16 of `[x₁ | x₂]` is `x₂`. -/
theorem concat2_cols_16 {n : ℕ} (x₁ : (⟨2, ![n, 16]⟩ : Shape).Idx → α) (x₂ : (⟨2, ![n, 1]⟩ : Shape).Idx → α)
    (h : Shape.Concatenates [(⟨2, ![n, 16]⟩ : Shape), ⟨2, ![n, 1]⟩] ⟨2, ![n, 17]⟩ 1)
    (r : Fin n) (k : Fin 17) (hk : k.val = 16) :
    concatenate ⟨2, ![n, 17]⟩ 1 [⟨⟨2, ![n, 16]⟩, x₁⟩, ⟨⟨2, ![n, 1]⟩, x₂⟩] h (ix2 r k) = x₂ (ix2 r (0 : Fin 1)) :=
  concatenate_apply_piece 1 [⟨⟨2, ![n, 16]⟩, x₁⟩, ⟨⟨2, ![n, 1]⟩, x₂⟩] h (ix2 r k) 1 (by simp) _ x₂ rfl rfl 16 rfl (ix2 r (0 : Fin 1))
    (fun b hb => by match b with | ⟨0, _⟩ => rfl | ⟨1, _⟩ => exact absurd rfl hb)
    (by show 16 + 0 = k.val; omega)

end Cert.Stein
-- ==== Proof.PayloadKernelValue.lean ====
/-
  The blocked program's Gaussian weights for one block of 2048 rows against one block of 1024 columns, read at an
  index. Each row of the row block is extended to 18 coordinates, (-2 x_r, |x_r|², 1), each row of the column block to
  (x_l, 1, |x_l|²), and their product over the 18 coordinates is Σ_d (-2 x_r,d) x_l,d + |x_r|² · 1 + 1 · |x_l|², the
  expanded squared distance; it is clamped at zero, halved with a minus sign, and exponentiated.
-/
import proofs.«158856_j48387101557205_2_alg».proof.Proof.Accum
import proofs.«158856_j48387101557205_2_alg».proof.Proof.PayloadLiterals
import proofs.«158856_j48387101557205_2_alg».proof.Proof.PayloadLayout
import Idealize.ShloMosaic.PureOps.Ideal.Laws

noncomputable section

namespace Cert.Stein

open Idealize.ShloMosaic Idealize.ShloMosaic.ValueIdx Cert.KernelIdeal Cert.KernelIdeal.Gen

/-! ## The stages of the update, as the program composes them -/

/-- |x_r|² for each row of the row block: a lane sum of squares. -/
def sqRows (v3 : Vec Ideal S2048x16 .f32) : FVec Ideal S2048 .f32 :=
  multiReduction (F := Ideal) .add [1] S2048 (mulf v3 v3) 0x00000000#32 reduces_S2048x16_S2048 (.inl rfl) rfl

/-- |x_l|² for each row of the column block. -/
def sqCols (v4 : Vec Ideal S1024x16 .f32) : FVec Ideal S1024 .f32 :=
  multiReduction (F := Ideal) .add [1] S1024 (mulf v4 v4) 0x00000000#32 reduces_S1024x16_S1024 (.inl rfl) rfl

/-- The row block extended to 18 coordinates: (-2 x_r, |x_r|², 1). -/
def lhsAug (v3 : Vec Ideal S2048x16 .f32) : FVec Ideal S2048x18 .f32 :=
  concatenate S2048x18 1
    [⟨S2048x16, mulf v3 (broadcast S2048x16 (Scalar.ofBits .f32 0xC0000000#32 : Ideal .f32))⟩,
     ⟨S2048x1, shapeCast S2048x1 (sqRows v3) shapeCasts_S2048_S2048x1⟩,
     ⟨S2048x1, broadcast S2048x1 (Scalar.ofBits .f32 0x3F800000#32 : Ideal .f32)⟩]
    concatenates_S2048x16_S2048x1_S2048x1_S2048x18_d1

/-- The column block extended to 18 coordinates: (x_l, 1, |x_l|²). -/
def rhsAug (v4 : Vec Ideal S1024x16 .f32) : FVec Ideal S1024x18 .f32 :=
  concatenate S1024x18 1
    [⟨S1024x16, v4⟩,
     ⟨S1024x1, broadcast S1024x1 (Scalar.ofBits .f32 0x3F800000#32 : Ideal .f32)⟩,
     ⟨S1024x1, shapeCast S1024x1 (sqCols v4) shapeCasts_S1024_S1024x1⟩]
    concatenates_S1024x16_S1024x1_S1024x1_S1024x18_d1

/-- The column block extended by the unit coordinate: (x_l, 1). -/
def colAug (v4 : Vec Ideal S1024x16 .f32) : FVec Ideal S1024x17 .f32 :=
  concatenate S1024x17 1
    [⟨S1024x16, v4⟩,
     ⟨S1024x1, broadcast S1024x1 (Scalar.ofBits .f32 0x3F800000#32 : Ideal .f32)⟩]
    concatenates_S1024x16_S1024x1_S1024x17_d1

/-- The 2048 × 1024 matrix of expanded squared distances: the product of the two extended blocks over 18 coordinates. -/
def distMat (v3 : Vec Ideal S2048x16 .f32) (v4 : Vec Ideal S1024x16 .f32) : FVec Ideal S2048x1024 .f32 :=
  matmul dot_S2048x18_S1024x18_S2048x1024_1_1_0_0_n_n (some .fp32) (lhsAug v3) (rhsAug v4)
    (constant (F := Ideal) S2048x1024 .f32 0x00000000#32)

/-- The 2048 × 1024 matrix of Gaussian weights exp(max(dist, 0) · (-1/2)). -/
def gaussMat (v3 : Vec Ideal S2048x16 .f32) (v4 : Vec Ideal S1024x16 .f32) : FVec Ideal S2048x1024 .f32 :=
  exp (mulf (maximumf (distMat v3 v4) (broadcast S2048x1024 (Scalar.ofBits .f32 0x00000000#32 : Ideal .f32)))
    (broadcast S2048x1024 (Scalar.ofBits .f32 0xBF000000#32 : Ideal .f32)))

/-! ## The same numbers as plain formulas of the two blocks -/

/-- Σ_d (-2 x_r,d) x_l,d + |x_r|² · 1 + 1 · |x_l|². -/
def blockDist (v3 : Vec Ideal S2048x16 .f32) (v4 : Vec Ideal S1024x16 .f32) (r : Fin 2048) (l : Fin 1024) : EReal :=
  (∑ d : Fin 16, (v3 (ix2 r d) * ((-2 : ℝ) : EReal)) * v4 (ix2 l d))
    + (∑ d : Fin 16, v3 (ix2 r d) * v3 (ix2 r d)) * ((1 : ℝ) : EReal)
    + ((1 : ℝ) : EReal) * ∑ d : Fin 16, v4 (ix2 l d) * v4 (ix2 l d)

/-- exp(max(blockDist, 0) · (-1/2)). -/
def blockGauss (v3 : Vec Ideal S2048x16 .f32) (v4 : Vec Ideal S1024x16 .f32) (r : Fin 2048) (l : Fin 1024) : EReal :=
  Ideal.exp (max (blockDist v3 v4 r l) 0 * ((-(1 / 2) : ℝ) : EReal))

/-! ## The squared norms -/

theorem sqRows_apply (v3 : Vec Ideal S2048x16 .f32) (r : Fin 2048) :
    sqRows v3 (ix1 r) = ∑ d : Fin 16, v3 (ix2 r d) * v3 (ix2 r d) := by
  unfold sqRows
  refine (Ideal.multiReduction_add_single (mulf v3 v3) 0x00000000#32 reduces_S2048x16_S2048 (.inl rfl) rfl (ix1 r)).trans ?_
  refine Finset.sum_congr rfl fun d _ => ?_
  have e : reduces_S2048x16_S2048.lift (ix1 r) d = ix2 r d := funext fun c => Fin.ext (by
    match c with
    | ⟨0, _⟩ => rfl
    | ⟨1, _⟩ => rfl)
  rw [e]
  rfl

theorem sqCols_apply (v4 : Vec Ideal S1024x16 .f32) (l : Fin 1024) :
    sqCols v4 (ix1 l) = ∑ d : Fin 16, v4 (ix2 l d) * v4 (ix2 l d) := by
  unfold sqCols
  refine (Ideal.multiReduction_add_single (mulf v4 v4) 0x00000000#32 reduces_S1024x16_S1024 (.inl rfl) rfl (ix1 l)).trans ?_
  refine Finset.sum_congr rfl fun d _ => ?_
  have e : reduces_S1024x16_S1024.lift (ix1 l) d = ix2 l d := funext fun c => Fin.ext (by
    match c with
    | ⟨0, _⟩ => rfl
    | ⟨1, _⟩ => rfl)
  rw [e]
  rfl

/-! ## The extended blocks, coordinate by coordinate -/

theorem lhsAug_lo (v3 : Vec Ideal S2048x16 .f32) (r : Fin 2048) (k : Fin 18) (d : Fin 16) (hk : k.val = d.val) :
    lhsAug v3 (ix2 r k) = v3 (ix2 r d) * ((-2 : ℝ) : EReal) := by
  unfold lhsAug
  refine (concat3_cols_lo _ _ _ _ r k d hk).trans ?_
  show v3 (ix2 r d) * Ideal.ofBits .f32 0xC0000000#32 = _
  rw [lit_negTwo]

theorem lhsAug_16 (v3 : Vec Ideal S2048x16 .f32) (r : Fin 2048) (k : Fin 18) (hk : k.val = 16) :
    lhsAug v3 (ix2 r k) = ∑ d : Fin 16, v3 (ix2 r d) * v3 (ix2 r d) := by
  unfold lhsAug
  refine (concat3_cols_16 _ _ _ _ r k hk).trans ?_
  refine (shapeCast_a_a1_apply _ _ r 0).trans ?_
  exact sqRows_apply v3 r

theorem lhsAug_17 (v3 : Vec Ideal S2048x16 .f32) (r : Fin 2048) (k : Fin 18) (hk : k.val = 17) :
    lhsAug v3 (ix2 r k) = ((1 : ℝ) : EReal) := by
  unfold lhsAug
  refine (concat3_cols_17 _ _ _ _ r k hk).trans ?_
  exact lit_one

theorem rhsAug_lo (v4 : Vec Ideal S1024x16 .f32) (l : Fin 1024) (k : Fin 18) (d : Fin 16) (hk : k.val = d.val) :
    rhsAug v4 (ix2 l k) = v4 (ix2 l d) := by
  unfold rhsAug
  exact concat3_cols_lo _ _ _ _ l k d hk

theorem rhsAug_16 (v4 : Vec Ideal S1024x16 .f32) (l : Fin 1024) (k : Fin 18) (hk : k.val = 16) :
    rhsAug v4 (ix2 l k) = ((1 : ℝ) : EReal) := by
  unfold rhsAug
  refine (concat3_cols_16 _ _ _ _ l k hk).trans ?_
  exact lit_one

theorem rhsAug_17 (v4 : Vec Ideal S1024x16 .f32) (l : Fin 1024) (k : Fin 18) (hk : k.val = 17) :
    rhsAug v4 (ix2 l k) = ∑ d : Fin 16, v4 (ix2 l d) * v4 (ix2 l d) := by
  unfold rhsAug
  refine (concat3_cols_17 _ _ _ _ l k hk).trans ?_
  refine (shapeCast_a_a1_apply _ _ l 0).trans ?_
  exact sqCols_apply v4 l

theorem colAug_lo (v4 : Vec Ideal S1024x16 .f32) (l : Fin 1024) (k : Fin 17) (d : Fin 16) (hk : k.val = d.val) :
    colAug v4 (ix2 l k) = v4 (ix2 l d) := by
  unfold colAug
  exact concat2_cols_lo _ _ _ l k d hk

theorem colAug_16 (v4 : Vec Ideal S1024x16 .f32) (l : Fin 1024) (k : Fin 17) (hk : k.val = 16) :
    colAug v4 (ix2 l k) = ((1 : ℝ) : EReal) := by
  unfold colAug
  refine (concat2_cols_16 _ _ _ l k hk).trans ?_
  exact lit_one

/-! ## The distance product read at an index -/

theorem distDot_lhs0 (i : S2048x1024.Idx) (q : dot_S2048x18_S1024x18_S2048x1024_1_1_0_0_n_n.contr.Idx) :
    (dot_S2048x18_S1024x18_S2048x1024_1_1_0_0_n_n.lhsIdx i q 0).val = (i 0).val := by
  unfold DotDims.lhsIdx
  rw [dif_neg (show ¬(0 : Fin S2048x18.rank) ∈ dot_S2048x18_S1024x18_S2048x1024_1_1_0_0_n_n.lhsBatch by decide),
    dif_pos (show (0 : Fin S2048x18.rank) ∈ dot_S2048x18_S1024x18_S2048x1024_1_1_0_0_n_n.lhsNonContracting by decide)]
  rfl
theorem distDot_lhs1 (i : S2048x1024.Idx) (q : dot_S2048x18_S1024x18_S2048x1024_1_1_0_0_n_n.contr.Idx) :
    (dot_S2048x18_S1024x18_S2048x1024_1_1_0_0_n_n.lhsIdx i q 1).val = (q ⟨0, by decide⟩).val :=
  dot_S2048x18_S1024x18_S2048x1024_1_1_0_0_n_n.lhsIdx_val_of_single rfl i q
theorem distDot_rhs0 (i : S2048x1024.Idx) (q : dot_S2048x18_S1024x18_S2048x1024_1_1_0_0_n_n.contr.Idx) :
    (dot_S2048x18_S1024x18_S2048x1024_1_1_0_0_n_n.rhsIdx i q 0).val = (i 1).val := by
  unfold DotDims.rhsIdx
  rw [dif_neg (show ¬(0 : Fin S1024x18.rank) ∈ dot_S2048x18_S1024x18_S2048x1024_1_1_0_0_n_n.rhsBatch by decide),
    dif_pos (show (0 : Fin S1024x18.rank) ∈ dot_S2048x18_S1024x18_S2048x1024_1_1_0_0_n_n.rhsNonContracting by decide)]
  rfl
theorem distDot_rhs1 (i : S2048x1024.Idx) (q : dot_S2048x18_S1024x18_S2048x1024_1_1_0_0_n_n.contr.Idx) :
    (dot_S2048x18_S1024x18_S2048x1024_1_1_0_0_n_n.rhsIdx i q 1).val = (q ⟨0, by decide⟩).val :=
  dot_S2048x18_S1024x18_S2048x1024_1_1_0_0_n_n.rhsIdx_val_of_single rfl i q

/-- The distance matrix at (r, l): the sum over the 18 coordinates of the two extended rows' products. -/
theorem distMat_sum (v3 : Vec Ideal S2048x16 .f32) (v4 : Vec Ideal S1024x16 .f32) (r : Fin 2048) (l : Fin 1024) :
    distMat v3 v4 (ix2 r l) = ∑ k : Fin 18, lhsAug v3 (ix2 r k) * rhsAug v4 (ix2 l k) := by
  unfold distMat
  generalize lhsAug v3 = y0
  generalize rhsAug v4 = y1
  simp only [matmul]
  rw [Ideal.matmul_constant_zero_apply,
    ← Equiv.sum_comp (contrEquiv1 dot_S2048x18_S1024x18_S2048x1024_1_1_0_0_n_n 18 rfl rfl).symm]
  refine Finset.sum_congr rfl fun k _ => ?_
  have hk := contrEquiv1_symm_val dot_S2048x18_S1024x18_S2048x1024_1_1_0_0_n_n 18 rfl rfl k
  have el : dot_S2048x18_S1024x18_S2048x1024_1_1_0_0_n_n.lhsIdx (ix2 r l) ((contrEquiv1 dot_S2048x18_S1024x18_S2048x1024_1_1_0_0_n_n 18 rfl rfl).symm k) = ix2 r k :=
    funext fun a => Fin.ext (by
      match a with
      | ⟨0, _⟩ => exact distDot_lhs0 _ _
      | ⟨1, _⟩ => exact (distDot_lhs1 _ _).trans hk)
  have er : dot_S2048x18_S1024x18_S2048x1024_1_1_0_0_n_n.rhsIdx (ix2 r l) ((contrEquiv1 dot_S2048x18_S1024x18_S2048x1024_1_1_0_0_n_n 18 rfl rfl).symm k) = ix2 l k :=
    funext fun a => Fin.ext (by
      match a with
      | ⟨0, _⟩ => exact distDot_rhs0 _ _
      | ⟨1, _⟩ => exact (distDot_rhs1 _ _).trans hk)
  rw [el, er]

/-- The distance matrix at (r, l) is the expanded squared distance of the two rows. -/
theorem distMat_apply (v3 : Vec Ideal S2048x16 .f32) (v4 : Vec Ideal S1024x16 .f32) (r : Fin 2048) (l : Fin 1024) :
    distMat v3 v4 (ix2 r l) = blockDist v3 v4 r l := by
  rw [distMat_sum, Fin.sum_univ_castSucc, Fin.sum_univ_castSucc]
  unfold blockDist
  refine congrArg₂ (· + ·) (congrArg₂ (· + ·) (Finset.sum_congr rfl fun d _ => ?_) ?_) ?_
  · rw [lhsAug_lo v3 r _ d rfl, rhsAug_lo v4 l _ d rfl]
  · rw [lhsAug_16 v3 r _ rfl, rhsAug_16 v4 l _ rfl]
  · rw [lhsAug_17 v3 r _ rfl, rhsAug_17 v4 l _ rfl]

/-- The weight matrix at (r, l) is the Gaussian weight of the two rows. -/
theorem gaussMat_apply (v3 : Vec Ideal S2048x16 .f32) (v4 : Vec Ideal S1024x16 .f32) (r : Fin 2048) (l : Fin 1024) :
    gaussMat v3 v4 (ix2 r l) = blockGauss v3 v4 r l := by
  show Ideal.exp (max (distMat v3 v4 (ix2 r l)) (Ideal.ofBits .f32 0x00000000#32) * Ideal.ofBits .f32 0xBF000000#32) = _
  rw [Ideal.ofBits_zero_f32, lit_negHalf, distMat_apply]
  rfl

end Cert.Stein

end
-- ==== Proof.PayloadUpdate.lean ====
/-
  One update of the accumulator, read at an index: the accumulator there plus the sum, over the 1024 rows of the
  column block, of the Gaussian weight times the extended column (x_l, 1). Also the zero accumulator the first
  column block starts from, and the closing formula the program applies to the full accumulator.
-/
import proofs.«158856_j48387101557205_2_alg».proof.Proof.PayloadKernelValue
import Idealize.ShloMosaic.Lib.ValueLayout

noncomputable section

namespace Cert.Stein

open Idealize.ShloMosaic Idealize.ShloMosaic.ValueIdx Cert.KernelIdeal Cert.KernelIdeal.Gen

/-- The 2048 × 17 matrix of weighted sums Σ_l g(r, l) · (x_l, 1): the product of the weights and the extended columns. -/
def momentMat (v3 : Vec Ideal S2048x16 .f32) (v4 : Vec Ideal S1024x16 .f32) : FVec Ideal S2048x17 .f32 :=
  matmul dot_S2048x1024_S1024x17_S2048x17_1_0_0_1_n_n none (truncf .bf16 (gaussMat v3 v4) bitsLt_bf16_f32)
    (truncf .bf16 (colAug v4) bitsLt_bf16_f32) (constant (F := Ideal) S2048x17 .f32 0x00000000#32)

/-- The program's update is the accumulator plus that matrix. -/
theorem k0_pay3_eq (v3 : Vec Ideal S2048x16 .f32) (v4 : Vec Ideal S1024x16 .f32) (v26 : Vec Ideal S2048x17 .f32) :
    k0_pay3 (F := Ideal) v3 v4 v26
      = shapeCast S2048x17 (addf v26 (momentMat v3 v4)) shapeCasts_S2048x17_S2048x17 := rfl

theorem momentDot_lhs0 (i : S2048x17.Idx) (q : dot_S2048x1024_S1024x17_S2048x17_1_0_0_1_n_n.contr.Idx) :
    (dot_S2048x1024_S1024x17_S2048x17_1_0_0_1_n_n.lhsIdx i q 0).val = (i 0).val := by
  unfold DotDims.lhsIdx
  rw [dif_neg (show ¬(0 : Fin S2048x1024.rank) ∈ dot_S2048x1024_S1024x17_S2048x17_1_0_0_1_n_n.lhsBatch by decide),
    dif_pos (show (0 : Fin S2048x1024.rank) ∈ dot_S2048x1024_S1024x17_S2048x17_1_0_0_1_n_n.lhsNonContracting by decide)]
  rfl
theorem momentDot_lhs1 (i : S2048x17.Idx) (q : dot_S2048x1024_S1024x17_S2048x17_1_0_0_1_n_n.contr.Idx) :
    (dot_S2048x1024_S1024x17_S2048x17_1_0_0_1_n_n.lhsIdx i q 1).val = (q ⟨0, by decide⟩).val :=
  dot_S2048x1024_S1024x17_S2048x17_1_0_0_1_n_n.lhsIdx_val_of_single rfl i q
theorem momentDot_rhs0 (i : S2048x17.Idx) (q : dot_S2048x1024_S1024x17_S2048x17_1_0_0_1_n_n.contr.Idx) :
    (dot_S2048x1024_S1024x17_S2048x17_1_0_0_1_n_n.rhsIdx i q 0).val = (q ⟨0, by decide⟩).val :=
  dot_S2048x1024_S1024x17_S2048x17_1_0_0_1_n_n.rhsIdx_val_of_single rfl i q
theorem momentDot_rhs1 (i : S2048x17.Idx) (q : dot_S2048x1024_S1024x17_S2048x17_1_0_0_1_n_n.contr.Idx) :
    (dot_S2048x1024_S1024x17_S2048x17_1_0_0_1_n_n.rhsIdx i q 1).val = (i 1).val := by
  unfold DotDims.rhsIdx
  rw [dif_neg (show ¬(1 : Fin S1024x17.rank) ∈ dot_S2048x1024_S1024x17_S2048x17_1_0_0_1_n_n.rhsBatch by decide),
    dif_pos (show (1 : Fin S1024x17.rank) ∈ dot_S2048x1024_S1024x17_S2048x17_1_0_0_1_n_n.rhsNonContracting by decide)]
  rfl

/-- The weighted sums at (r, k): the sum over the column block's rows of weight times extended column. -/
theorem momentMat_apply (v3 : Vec Ideal S2048x16 .f32) (v4 : Vec Ideal S1024x16 .f32) (r : Fin 2048) (k : Fin 17) :
    momentMat v3 v4 (ix2 r k) = ∑ l : Fin 1024, blockGauss v3 v4 r l * colAug v4 (ix2 l k) := by
  unfold momentMat
  have hg : ∀ l : Fin 1024, gaussMat v3 v4 (ix2 r l) = blockGauss v3 v4 r l := gaussMat_apply v3 v4 r
  generalize gaussMat v3 v4 = y0 at hg ⊢
  generalize colAug v4 = y1
  simp only [matmul]
  rw [Ideal.matmul_constant_zero_apply,
    ← Equiv.sum_comp (contrEquiv1 dot_S2048x1024_S1024x17_S2048x17_1_0_0_1_n_n 1024 rfl rfl).symm]
  refine Finset.sum_congr rfl fun l _ => ?_
  have hk := contrEquiv1_symm_val dot_S2048x1024_S1024x17_S2048x17_1_0_0_1_n_n 1024 rfl rfl l
  have el : dot_S2048x1024_S1024x17_S2048x17_1_0_0_1_n_n.lhsIdx (ix2 r k) ((contrEquiv1 dot_S2048x1024_S1024x17_S2048x17_1_0_0_1_n_n 1024 rfl rfl).symm l) = ix2 r l :=
    funext fun a => Fin.ext (by
      match a with
      | ⟨0, _⟩ => exact momentDot_lhs0 _ _
      | ⟨1, _⟩ => exact (momentDot_lhs1 _ _).trans hk)
  have er : dot_S2048x1024_S1024x17_S2048x17_1_0_0_1_n_n.rhsIdx (ix2 r k) ((contrEquiv1 dot_S2048x1024_S1024x17_S2048x17_1_0_0_1_n_n 1024 rfl rfl).symm l) = ix2 l k :=
    funext fun a => Fin.ext (by
      match a with
      | ⟨0, _⟩ => exact (momentDot_rhs0 _ _).trans hk
      | ⟨1, _⟩ => exact momentDot_rhs1 _ _)
  rw [el, er]
  show y0 (ix2 r l) * y1 (ix2 l k) = _
  rw [hg l]

/-- THE UPDATE AT (r, k): the accumulator there plus Σ_l g(r, l) · (x_l, 1)_k. -/
theorem k0_pay3_apply (v3 : Vec Ideal S2048x16 .f32) (v4 : Vec Ideal S1024x16 .f32) (v26 : Vec Ideal S2048x17 .f32)
    (r : Fin 2048) (k : Fin 17) :
    k0_pay3 (F := Ideal) v3 v4 v26 (ix2 r k)
      = v26 (ix2 r k) + ∑ l : Fin 1024, blockGauss v3 v4 r l * colAug v4 (ix2 l k) := by
  rw [k0_pay3_eq, shapeCast_self, addf_apply, momentMat_apply]

/-- On a coordinate column d < 16 the update adds Σ_l g(r, l) · x_l,d. -/
theorem k0_pay3_moment (v3 : Vec Ideal S2048x16 .f32) (v4 : Vec Ideal S1024x16 .f32) (v26 : Vec Ideal S2048x17 .f32)
    (r : Fin 2048) (k : Fin 17) (d : Fin 16) (hk : k.val = d.val) :
    k0_pay3 (F := Ideal) v3 v4 v26 (ix2 r k)
      = v26 (ix2 r k) + ∑ l : Fin 1024, blockGauss v3 v4 r l * v4 (ix2 l d) := by
  rw [k0_pay3_apply]
  exact congrArg (v26 (ix2 r k) + ·) (Finset.sum_congr rfl fun l _ => by rw [colAug_lo v4 l k d hk])

/-- On the unit column 16 the update adds Σ_l g(r, l) · 1. -/
theorem k0_pay3_rowsum (v3 : Vec Ideal S2048x16 .f32) (v4 : Vec Ideal S1024x16 .f32) (v26 : Vec Ideal S2048x17 .f32)
    (r : Fin 2048) (k : Fin 17) (hk : k.val = 16) :
    k0_pay3 (F := Ideal) v3 v4 v26 (ix2 r k)
      = v26 (ix2 r k) + ∑ l : Fin 1024, blockGauss v3 v4 r l * ((1 : ℝ) : EReal) := by
  rw [k0_pay3_apply]
  exact congrArg (v26 (ix2 r k) + ·) (Finset.sum_congr rfl fun l _ => by rw [colAug_16 v4 l k hk])

/-- The accumulator the first column block starts from is zero everywhere. -/
theorem k0_pay2_apply (j : S2048x17.Idx) : k0_pay2 (F := Ideal) j = 0 := by
  have e : k0_pay2 (F := Ideal)
      = shapeCast S2048x17 (broadcast S2048x17 (Scalar.ofBits .f32 0x00000000#32 : Ideal .f32))
          shapeCasts_S2048x17_S2048x17 := rfl
  rw [e, shapeCast_self]
  exact Ideal.ofBits_zero_f32

/-- THE CLOSING FORMULA AT (r, d): ((mu_d + x_r,d · 1) · acc(r, 16) - acc(r, d) · 2) · (1/4096). -/
theorem k0_pay1_apply (v3 : Vec Ideal S2048x16 .f32) (v35 : Vec Ideal S1x16 .f32) (v37 : Vec Ideal S2048x17 .f32)
    (r : Fin 2048) (d : Fin 16) :
    k0_pay1 (F := Ideal) v3 v35 v37 (ix2 r d)
      = ((v35 (ix2 (0 : Fin 1) d) + v3 (ix2 r d) * ((1 : ℝ) : EReal)) * v37 (ix2 r (⟨16, by decide⟩ : Fin 17))
          - v37 (ix2 r (⟨d.val, by have := d.isLt; omega⟩ : Fin 17)) * ((2 : ℝ) : EReal)) * ((1 / 4096 : ℝ) : EReal) := by
  show ((broadcastTo S2048x16 (shapeCast S1x16 v35 shapeCasts_S1x16_S1x16) broadcasts_S1x16_S2048x16 (ix2 r d)
            + v3 (ix2 r d) * Ideal.ofBits .f32 0x3F800000#32)
          * broadcastTo S2048x16 (extractStridedSlice S2048x1 ![0, 16] v37 slices_S2048x17_o0_16_S2048x1)
              broadcasts_S2048x1_S2048x16 (ix2 r d)
        - extractStridedSlice S2048x16 ![0, 0] v37 slices_S2048x17_o0_0_S2048x16 (ix2 r d)
            * Ideal.ofBits .f32 0x40000000#32) * Ideal.ofBits .f32 0x39800000#32 = _
  rw [broadcastTo_1b_ab_apply, shapeCast_self, broadcastTo_a1_ab_apply,
    slice2_axis1_apply 16 v37 _ r (0 : Fin 1) (⟨16, by decide⟩ : Fin 17) rfl,
    slice2_axis1_apply 0 v37 _ r d (⟨d.val, by have := d.isLt; omega⟩ : Fin 17) (Nat.zero_add _).symm,
    lit_one, lit_two, lit_inv4096]

end Cert.Stein

end
-- ==== Proof.PayloadSum.lean ====
/-
  A sum over 4096 particles taken in four consecutive blocks of 1024: particle `b` is `1024 · J + l` for exactly one
  block `J` below 4 and one position `l` below 1024.
-/
import Mathlib.Algebra.BigOperators.Fin
import Mathlib.Logic.Equiv.Fin.Basic

namespace Cert.Stein

open scoped BigOperators

/-- The sum over all 4096 particles is the sum over the four blocks of the sums inside each block. -/
theorem sum_four_blocks {M : Type*} [AddCommMonoid M] (f : Fin 4096 → M) :
    ∑ b : Fin 4096, f b
      = ∑ J : Fin 4, ∑ l : Fin 1024,
          f ⟨1024 * J.val + l.val, by have := J.isLt; have := l.isLt; omega⟩ := by
  have e := Equiv.sum_comp (finProdFinEquiv (m := 4) (n := 1024)) (fun b : Fin (4 * 1024) => f b)
  rw [Fintype.sum_prod_type] at e
  exact e.symm.trans (Finset.sum_congr rfl fun J _ => Finset.sum_congr rfl fun l _ =>
    congrArg f (Fin.ext (by show l.val + 1024 * J.val = 1024 * J.val + l.val; omega)))

/-- The same with the four blocks written out, in the order a running total adds them. -/
theorem sum_four_blocks' {M : Type*} [AddCommMonoid M] (f : Fin 4096 → M) :
    ∑ b : Fin 4096, f b
      = (∑ l : Fin 1024, f ⟨1024 * 0 + l.val, by have := l.isLt; omega⟩)
        + (∑ l : Fin 1024, f ⟨1024 * 1 + l.val, by have := l.isLt; omega⟩)
        + (∑ l : Fin 1024, f ⟨1024 * 2 + l.val, by have := l.isLt; omega⟩)
        + (∑ l : Fin 1024, f ⟨1024 * 3 + l.val, by have := l.isLt; omega⟩) := by
  rw [sum_four_blocks, Fin.sum_univ_four]
  rfl

end Cert.Stein
-- ==== Proof.PayloadValue.lean ====
/-
  The blocked program's result block read at an index. After the four column blocks the accumulator of row block I
  holds, at row r, the row moments Σ_b g(a, b) x_b,d in columns d < 16 and the row sum Σ_b g(a, b) in column 16, for
  the particle a = 2048 · I + r and b over all 4096 particles: each update adds one block of 1024 particles, from zero,
  and the four blocks are all of them. The closing formula then gives the blocked order's direction at (a, d).
-/
import proofs.«158856_j48387101557205_2_alg».proof.Proof.PayloadUpdate
import proofs.«158856_j48387101557205_2_alg».proof.Proof.PayloadSum

noncomputable section

namespace Cert.Stein

open Idealize.ShloMosaic Idealize.ShloMosaic.ValueIdx Cert.KernelIdeal Cert.KernelIdeal.Gen

variable (x : SX.Idx → EReal) (mu : SMu.Idx → EReal)

/-- The weight of row r of row block I against row l of column block J is the specification's Gaussian weight of the
    particles 2048 · I + r and 1024 · J + l. -/
theorem blockGauss_blocks (I : Fin 2) (J : Fin 4) (r : Fin 2048) (l : Fin 1024) :
    blockGauss (rowBlock x I) (colBlock x J) r l
      = gaussExp x (⟨2048 * I.val + r.val, by have := I.isLt; have := r.isLt; omega⟩ : Fin 4096) (⟨1024 * J.val + l.val, by have := J.isLt; have := l.isLt; omega⟩ : Fin 4096) := rfl

/-- Row l of column block J, coordinate d, is particle 1024 · J + l's. -/
theorem colBlock_apply (J : Fin 4) (l : Fin 1024) (d : Fin 16) :
    colBlock x J (ix2 l d) = x (ix2 (⟨1024 * J.val + l.val, by have := J.isLt; have := l.isLt; omega⟩ : Fin 4096) d) := rfl

/-- Row r of row block I, coordinate d, is particle 2048 · I + r's. -/
theorem rowBlock_apply (I : Fin 2) (r : Fin 2048) (d : Fin 16) :
    rowBlock x I (ix2 r d) = x (ix2 (⟨2048 * I.val + r.val, by have := I.isLt; have := r.isLt; omega⟩ : Fin 4096) d) := rfl

/-- The mean's row at coordinate d. -/
theorem muRow_apply (d : Fin 16) : muRow mu (ix2 (0 : Fin 1) d) = mu (ix1 d) := rfl

/-- After the four column blocks, column d < 16 of the accumulator is the row moment over all particles. -/
theorem acc3_moment (I : Fin 2) (r : Fin 2048) (k : Fin 17) (d : Fin 16) (hk : k.val = d.val) :
    acc3 x I (ix2 r k) = rowMoment x (⟨2048 * I.val + r.val, by have := I.isLt; have := r.isLt; omega⟩ : Fin 4096) d := by
  have h3 : acc3 x I (ix2 r k) = acc2 x I (ix2 r k)
      + ∑ l : Fin 1024, blockGauss (rowBlock x I) (colBlock x 3) r l * colBlock x 3 (ix2 l d) :=
    k0_pay3_moment (rowBlock x I) (colBlock x 3) (acc2 x I) r k d hk
  have h2 : acc2 x I (ix2 r k) = acc1 x I (ix2 r k)
      + ∑ l : Fin 1024, blockGauss (rowBlock x I) (colBlock x 2) r l * colBlock x 2 (ix2 l d) :=
    k0_pay3_moment (rowBlock x I) (colBlock x 2) (acc1 x I) r k d hk
  have h1 : acc1 x I (ix2 r k) = acc0 x I (ix2 r k)
      + ∑ l : Fin 1024, blockGauss (rowBlock x I) (colBlock x 1) r l * colBlock x 1 (ix2 l d) :=
    k0_pay3_moment (rowBlock x I) (colBlock x 1) (acc0 x I) r k d hk
  have h0 : acc0 x I (ix2 r k) = k0_pay2 (F := Ideal) (ix2 r k)
      + ∑ l : Fin 1024, blockGauss (rowBlock x I) (colBlock x 0) r l * colBlock x 0 (ix2 l d) :=
    k0_pay3_moment (rowBlock x I) (colBlock x 0) (k0_pay2 (F := Ideal)) r k d hk
  rw [h3, h2, h1, h0, k0_pay2_apply, zero_add]
  unfold rowMoment
  rw [sum_four_blocks']
  rfl

/-- After the four column blocks, column 16 of the accumulator is the row sum over all particles. -/
theorem acc3_rowsum (I : Fin 2) (r : Fin 2048) (k : Fin 17) (hk : k.val = 16) :
    acc3 x I (ix2 r k) = rowSum x (⟨2048 * I.val + r.val, by have := I.isLt; have := r.isLt; omega⟩ : Fin 4096) := by
  have h3 : acc3 x I (ix2 r k) = acc2 x I (ix2 r k)
      + ∑ l : Fin 1024, blockGauss (rowBlock x I) (colBlock x 3) r l * ((1 : ℝ) : EReal) :=
    k0_pay3_rowsum (rowBlock x I) (colBlock x 3) (acc2 x I) r k hk
  have h2 : acc2 x I (ix2 r k) = acc1 x I (ix2 r k)
      + ∑ l : Fin 1024, blockGauss (rowBlock x I) (colBlock x 2) r l * ((1 : ℝ) : EReal) :=
    k0_pay3_rowsum (rowBlock x I) (colBlock x 2) (acc1 x I) r k hk
  have h1 : acc1 x I (ix2 r k) = acc0 x I (ix2 r k)
      + ∑ l : Fin 1024, blockGauss (rowBlock x I) (colBlock x 1) r l * ((1 : ℝ) : EReal) :=
    k0_pay3_rowsum (rowBlock x I) (colBlock x 1) (acc0 x I) r k hk
  have h0 : acc0 x I (ix2 r k) = k0_pay2 (F := Ideal) (ix2 r k)
      + ∑ l : Fin 1024, blockGauss (rowBlock x I) (colBlock x 0) r l * ((1 : ℝ) : EReal) :=
    k0_pay3_rowsum (rowBlock x I) (colBlock x 0) (k0_pay2 (F := Ideal)) r k hk
  rw [h3, h2, h1, h0, k0_pay2_apply, zero_add]
  unfold rowSum
  rw [sum_four_blocks']
  rfl

/-- THE RESULT BLOCK AT (r, d): the blocked order's direction at particle 2048 · I + r, coordinate d. -/
theorem outBlock_apply (x : SX.Idx → EReal) (mu : SMu.Idx → EReal) (I : Fin 2) (r : Fin 2048) (d : Fin 16) :
    outBlock x mu I (Idealize.ShloMosaic.ValueIdx.ix2 r d)
      = directionExpAt x mu (⟨2048 * I.val + r.val, by have := I.isLt; have := r.isLt; omega⟩ : Fin 4096) d := by
  unfold outBlock
  rw [k0_pay1_apply, acc3_rowsum x I r _ rfl, acc3_moment x I r _ d rfl]
  rfl

end Cert.Stein

end
-- ==== Proof.KernelIdealValue.lean ====
/-
  What the blocked program's result array holds after the run, at the ideal instance: at particle a and coordinate d
  the blocked-order Stein direction of the two argument arrays.

  The result's window is written back at the last column block of each row block, points 3 and 7. There its buffer
  holds the program's closing formula of the row block, the mean's row and the accumulator after all four column
  blocks — the specification's `outBlock` of the row block, once each window's block is recognised as the rows, the
  columns or the mean's row of the arguments (the mean reaches the region through one reshape to a row). The two
  blocks tile the 4096 rows, so the array ends holding the direction everywhere.
-/
import proofs.«158856_j48387101557205_2_alg».proof.Proof.KernelIdealLaunch
import proofs.«158856_j48387101557205_2_alg».proof.Proof.PayloadValue
import Idealize.ShloMosaic.Lib.Pipeline.Value
import Idealize.ShloMosaic.Lib.StableHlo.Run

set_option maxRecDepth 16384

noncomputable section

namespace Cert.KernelIdeal.HandValue

open Cert.KernelIdeal Cert.KernelIdeal.Gen Cert.KernelIdeal.Hand Cert.Stein
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The particles and the mean, as launched on core `c`. -/
abbrev xOf (c : Dev nD) : SX.Idx → EReal := m ((c : Thread nD τ).loc main_arg0)
abbrev muOf (c : Dev nD) : SMu.Idx → EReal := m ((c : Thread nD τ).loc main_arg1)

/-- The result array's specification: the blocked-order direction of the launched arguments. -/
def G (c : Dev nD) : S4096x16.Idx → EReal := fun p => directionExpAt (xOf m c) (muOf m c) (p 0) (p 1)

/-! ## The printed index maps, decided over the grid -/

theorem idx_rows : ∀ t : Fin cfg0.N, win0_0.index t (0 : Fin 2) = t.val / 4 ∧ win0_0.index t (1 : Fin 2) = 0 :=
  (by decide +kernel : ∀ t : Fin grid0.N, _)
theorem idx_cols : ∀ t : Fin cfg0.N, win0_1.index t (0 : Fin 2) = t.val % 4 ∧ win0_1.index t (1 : Fin 2) = 0 :=
  (by decide +kernel : ∀ t : Fin grid0.N, _)
theorem idx_mu : ∀ t : Fin cfg0.N, win0_2.index t (0 : Fin 2) = 0 ∧ win0_2.index t (1 : Fin 2) = 0 :=
  (by decide +kernel : ∀ t : Fin grid0.N, _)
theorem idx_out : ∀ t : Fin cfg0.N, win0_3.index t (0 : Fin 2) = t.val / 4 ∧ win0_3.index t (1 : Fin 2) = 0 :=
  (by decide +kernel : ∀ t : Fin grid0.N, _)

/-! ## Each window's block is a block of the arguments -/

/-- The rows' window at point t holds rows 2048·(t / 4) … of the particles. -/
theorem rows_eq (c : Dev nD) (t : Fin cfg0.N) (I : Fin 2) (hI : I.val = t.val / 4) :
    iblk m c 0 t = rowBlock (xOf m c) I := by
  funext y
  show V m c main_arg0 (((cfg0.win 0).blk t).view.emb y) = _
  rw [V_arg0]
  unfold rowBlock
  refine congrArg _ (funext fun a => Fin.ext ?_)
  obtain ⟨e0, e1⟩ := idx_rows t
  match a with
  | ⟨0, _⟩ => show win0_0.index t (0 : Fin 2) * 2048 + 1 * (y 0).val = 2048 * I.val + (y 0).val; omega
  | ⟨1, _⟩ => show win0_0.index t (1 : Fin 2) * 16 + 1 * (y 1).val = (y 1).val; omega

/-- The columns' window at point t holds rows 1024·(t mod 4) … of the particles. -/
theorem cols_eq (c : Dev nD) (t : Fin cfg0.N) (J : Fin 4) (hJ : J.val = t.val % 4) :
    iblk m c 1 t = colBlock (xOf m c) J := by
  funext y
  show V m c main_arg0 (((cfg0.win 1).blk t).view.emb y) = _
  rw [V_arg0]
  unfold colBlock
  refine congrArg _ (funext fun a => Fin.ext ?_)
  obtain ⟨e0, e1⟩ := idx_cols t
  match a with
  | ⟨0, _⟩ => show win0_1.index t (0 : Fin 2) * 1024 + 1 * (y 0).val = 1024 * J.val + (y 0).val; omega
  | ⟨1, _⟩ => show win0_1.index t (1 : Fin 2) * 16 + 1 * (y 1).val = (y 1).val; omega

/-- The mean's row as the region finds it: the launched mean reshaped to 1 × 16. -/
theorem V_row (c : Dev nD) :
    (V m c main_v0 : S1x16.Idx → EReal) = shapeCast S1x16 (m ((c : Thread nD τ).loc main_arg1)) shapeCasts_S16_S1x16 := by
  dsimp only [V, V0, hostOps0]; after_results; rfl

/-- The mean's window holds the mean as a row at every point. -/
theorem mu_eq (c : Dev nD) (t : Fin cfg0.N) : iblk m c 2 t = muRow (muOf m c) := by
  funext y
  show V m c main_v0 (((cfg0.win 2).blk t).view.emb y) = _
  rw [V_row, shapeCast_addUnit_apply]
  unfold muRow
  refine congrArg _ (funext fun a => Fin.ext ?_)
  obtain ⟨e0, e1⟩ := idx_mu t
  match a with
  | ⟨0, _⟩ => show win0_2.index t (1 : Fin 2) * 16 + 1 * (y 1).val = (y 1).val; omega

/-! ## The accumulator at the last column block of each row block -/

theorem scr3 (c : Dev nD) : scrAt m c t0_3.val t0_3.isLt = acc3 (xOf m c) 0 := by
  rw [scrAt_next m c t0_3 (by decide)]
  rw [show scrAt m c (t0_3.val - 1) _ = scrAt m c t0_2.val t0_2.isLt from rfl, scrAt_next m c t0_2 (by decide)]
  rw [show scrAt m c (t0_2.val - 1) _ = scrAt m c t0_1.val t0_1.isLt from rfl, scrAt_next m c t0_1 (by decide)]
  rw [show scrAt m c (t0_1.val - 1) _ = scrAt m c t0_0.val t0_0.isLt from rfl, scrAt_first m c t0_0 (by decide)]
  rw [rows_eq m c t0_3 0 (by decide), rows_eq m c t0_2 0 (by decide), rows_eq m c t0_1 0 (by decide), rows_eq m c t0_0 0 (by decide),
    cols_eq m c t0_3 3 (by decide), cols_eq m c t0_2 2 (by decide), cols_eq m c t0_1 1 (by decide), cols_eq m c t0_0 0 (by decide)]
  rfl

theorem scr7 (c : Dev nD) : scrAt m c t0_7.val t0_7.isLt = acc3 (xOf m c) 1 := by
  rw [scrAt_next m c t0_7 (by decide)]
  rw [show scrAt m c (t0_7.val - 1) _ = scrAt m c t0_6.val t0_6.isLt from rfl, scrAt_next m c t0_6 (by decide)]
  rw [show scrAt m c (t0_6.val - 1) _ = scrAt m c t0_5.val t0_5.isLt from rfl, scrAt_next m c t0_5 (by decide)]
  rw [show scrAt m c (t0_5.val - 1) _ = scrAt m c t0_4.val t0_4.isLt from rfl, scrAt_first m c t0_4 (by decide)]
  rw [rows_eq m c t0_7 1 (by decide), rows_eq m c t0_6 1 (by decide), rows_eq m c t0_5 1 (by decide), rows_eq m c t0_4 1 (by decide),
    cols_eq m c t0_7 3 (by decide), cols_eq m c t0_6 2 (by decide), cols_eq m c t0_5 1 (by decide), cols_eq m c t0_4 0 (by decide)]
  rfl

/-! ## What a write-back writes -/

/-- At a point whose accumulator is the full one of row block I, the result's buffer is block I of the direction. -/
theorem out_value (c : Dev nD) (t : Fin cfg0.N) (I : Fin 2) (hI : I.val = t.val / 4)
    (hs : scrAt m c t.val t.isLt = acc3 (xOf m c) I) :
    outAt m c t.val t.isLt = ((cfg0.win 3).blk t).view.read (Elt Ideal) (G m c) := by
  unfold outAt
  rw [hs, rows_eq m c t I hI, mu_eq m c t]
  funext y
  obtain ⟨r, d, rfl⟩ : ∃ (r : Fin 2048) (d : Fin 16), y = ix2 r d := ⟨y 0, y 1, eq_ix2 y⟩
  show outBlock (xOf m c) (muOf m c) I (ix2 r d) = G m c (((cfg0.win 3).blk t).view.emb (ix2 r d))
  rw [outBlock_apply]
  unfold G
  obtain ⟨e0, e1⟩ := idx_out t
  congr 1
  · exact Fin.ext (by show 2048 * I.val + r.val = win0_3.index t (0 : Fin 2) * 2048 + 1 * r.val; omega)
  · exact Fin.ext (by show d.val = win0_3.index t (1 : Fin 2) * 16 + 1 * d.val; omega)

/-- WHAT A WRITE-BACK WRITES is its block of the direction. -/
theorem flushed_eq (c : Dev nD) (t : Fin cfg0.N) (hf : (cfg0.win 3).flush t = true) :
    (dats m 0 c).flushed 3 t = ((cfg0.win 3).blk t).view.read (Elt Ideal) (G m c) := by
  have h3 : t.val % 4 = 3 := (flush0_3 t).mp hf
  show (cfg0.win 3).cut (grid0.coords t) ((dats m 0 c).after 3 t) = _
  rw [after3]
  rcases fin_N0 t with rfl | rfl | rfl | rfl | rfl | rfl | rfl | rfl
  · exact absurd h3 (by decide)
  · exact absurd h3 (by decide)
  · exact absurd h3 (by decide)
  · exact out_value m c t0_3 0 (by decide) (scr3 m c)
  · exact absurd h3 (by decide)
  · exact absurd h3 (by decide)
  · exact absurd h3 (by decide)
  · exact out_value m c t0_7 1 (by decide) (scr7 m c)

/-! ## The two blocks tile the array -/

theorem mem_blk (t : Fin cfg0.N) (i : S4096x16.Idx) :
    i ∈ ((cfg0.win 3).blk t).view.set ↔ ∀ a : Fin 2, win0_3.index t a * S2048x16.size a ≤ (i a).val ∧ (i a).val < win0_3.index t a * S2048x16.size a + S2048x16.size a := by
  show i ∈ ((View.whole main_v1).slice (win0_3.rect t)).set ↔ _
  rw [View.set_slice_whole, Rect.mem_set_unit]
  exact Iff.rfl

theorem cover (i : S4096x16.Idx) : ∃ t : Fin cfg0.N, (cfg0.win 3).flush t = true ∧ i ∈ ((cfg0.win 3).blk t).view.set := by
  have hi0 : (i 0).val < 4096 := (i 0).isLt
  have hi1 : (i 1).val < 16 := (i 1).isLt
  by_cases h : (i 0).val < 2048
  · refine ⟨t0_3, (flush0_3 t0_3).mpr (by decide), ?_⟩
    rw [mem_blk]
    obtain ⟨e0, e1⟩ := idx_out t0_3
    have e0' : win0_3.index t0_3 (0 : Fin 2) = 0 := e0
    intro a
    match a with
    | ⟨0, _⟩ => show win0_3.index t0_3 (0 : Fin 2) * 2048 ≤ (i 0).val ∧ (i 0).val < win0_3.index t0_3 (0 : Fin 2) * 2048 + 2048; omega
    | ⟨1, _⟩ => show win0_3.index t0_3 (1 : Fin 2) * 16 ≤ (i 1).val ∧ (i 1).val < win0_3.index t0_3 (1 : Fin 2) * 16 + 16; omega
  · refine ⟨t0_7, (flush0_3 t0_7).mpr (by decide), ?_⟩
    rw [mem_blk]
    obtain ⟨e0, e1⟩ := idx_out t0_7
    have e0' : win0_3.index t0_7 (0 : Fin 2) = 1 := e0
    intro a
    match a with
    | ⟨0, _⟩ => show win0_3.index t0_7 (0 : Fin 2) * 2048 ≤ (i 0).val ∧ (i 0).val < win0_3.index t0_7 (0 : Fin 2) * 2048 + 2048; omega
    | ⟨1, _⟩ => show win0_3.index t0_7 (1 : Fin 2) * 16 ≤ (i 1).val ∧ (i 1).val < win0_3.index t0_7 (1 : Fin 2) * 16 + 16; omega

/-! ## The array after the run -/

/-- THE RESULT ARRAY after the run is the blocked-order direction of the launched arguments. -/
theorem final (c : Dev nD) : (dats m 0 c).arrAt 3 cfg0.N = G m c :=
  (dats m 0 c).arrAt_eq_of_cover 3 (G m c) (fun t hf => flushed_eq m c t hf) (cover)

/-- The run, read: the result array at the blocked-order direction, the arguments unchanged. -/
theorem run : θ_run defs (onTc (τ := τ) (main (F := Ideal))) ⟨m, fun _ => 0, ρ⟩ (fun r => ∀ c : Dev nD,
      r.2.mem ((c.tc : Thread nD τ).loc main_v1) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (run_result m ρ)

end Cert.KernelIdeal.HandValue

end
-- ==== Proof.RefRead.lean ====
/-
  The reference program's run and its operations read at an index: the generated modules this certificate builds on.
-/
import proofs.«158856_j48387101557205_2_alg».proof.Proof.Gen.ReferenceIdeal.Run
import proofs.«158856_j48387101557205_2_alg».proof.Proof.Gen.ReferenceIdeal.Read
-- ==== Proof.RefDirection.lean ====
/-
  The plain program computes the Stein direction in the specification's plain order.

  Each stage of the plain program is read at explicit coordinates: the coordinate difference x_i,d - x_j,d, the Gaussian
  kernel exp(-|x_i - x_j|² / 2), the score -(x_j,k - mu_k), the kernel-weighted scores as a contraction over the second
  particle, the kernel's gradients (-(x_i,d - x_j,d) / 1) · g(i, j) summed over the FIRST particle, and the quotient of
  their sum by 4096. Together they are `directionAt`, so the program's run ends with its result at `direction`.
-/
import proofs.«158856_j48387101557205_2_alg».proof.Proof.RefRead
import proofs.«158856_j48387101557205_2_alg».proof.Proof.Spec
import Idealize.ShloMosaic.Lib.ValueIdx
import Idealize.ShloMosaic.PureOps.Ideal.Laws

noncomputable section

open Cert.ReferenceIdeal Cert.ReferenceIdeal.Gen Cert.ReferenceIdeal.Read
open Idealize.ShloMosaic Idealize.ShloMosaic.ValueIdx Idealize.ShloMosaic.TcCoe Idealize.SL.Sem Idealize.ShloMosaic.StableHlo

namespace Cert.Stein.Ref

/-! ## The three float words that are not zero -/

/-- The word 0x40000000 denotes the real 2. -/
theorem ofBits_two : Ideal.ofBits .f32 0x40000000#32 = ((2 : ℝ) : EReal) := by
  simp [Ideal.ofBits, Ideal.ieee, -EReal.coe_mul]; norm_num

/-- The word 0x3F800000 denotes the real 1. -/
theorem ofBits_one : Ideal.ofBits .f32 0x3F800000#32 = ((1 : ℝ) : EReal) := by
  simp [Ideal.ofBits, Ideal.ieee, -EReal.coe_mul]; norm_num

/-- The word 0x45800000 denotes the real 4096. -/
theorem ofBits_4096 : Ideal.ofBits .f32 0x45800000#32 = ((4096 : ℝ) : EReal) := by
  simp [Ideal.ofBits, Ideal.ieee, -EReal.coe_mul]; norm_num

/-! ## The stages at explicit coordinates -/

variable (x : FVec Ideal S4096x16 .f32) (mu : FVec Ideal S16 .f32)

/-- The coordinate difference: stage 4 at (i, j, d) is x_i,d - x_j,d. -/
theorem diff_at (i j : Fin 4096) (d : Fin 16) :
    val_main_v4 (F := Ideal) x (ix3 i j d) = x (ix2 i d) - x (ix2 j d) := by
  have e0 : idx_main_v0 (idx_main_v2 (ix3 i j d)) = ix2 i d :=
    funext fun a => Fin.ext (by match a with | ⟨0, _⟩ => rfl | ⟨1, _⟩ => rfl)
  have e1 : idx_main_v1 (idx_main_v3 (ix3 i j d)) = ix2 j d :=
    funext fun a => Fin.ext (by match a with | ⟨0, _⟩ => rfl | ⟨1, _⟩ => rfl)
  rw [val_main_v4_apply, val_main_v2_apply, val_main_v0_apply, val_main_v3_apply, val_main_v1_apply, e0, e1,
    Ideal.subf_def]

/-- The Gaussian kernel: stage 10 at (i, j) is exp(-|x_i - x_j|² / 2). -/
theorem gauss_at (i j : Fin 4096) :
    val_main_v10 (F := Ideal) x (ix2 i j) = gauss x i j := by
  have e6 : ∀ k : Fin 16, idx_main_v6 (ix2 i j) k = ix3 i j k := fun k =>
    funext fun a => Fin.ext (by match a with | ⟨0, _⟩ => rfl | ⟨1, _⟩ => rfl | ⟨2, _⟩ => rfl)
  rw [val_main_v10_apply, val_main_v9_apply, val_main_v7_apply, val_main_v6_apply, val_main_cst_apply,
    val_main_v8_apply, val_main_cst_0_apply]
  simp only [e6, val_main_v5_apply, diff_at, Ideal.ofBits_def, Ideal.ofBits_zero_f32, zero_add, ofBits_two,
    Ideal.mulf_def, Ideal.hostNegf_def, Ideal.negf_def, Ideal.hostDivf_def, Ideal.hostUnary_exp_def]
  rfl

/-- The score: stage 14 at (j, k) is -(x_j,k - mu_k). -/
theorem score_at (j : Fin 4096) (k : Fin 16) :
    val_main_v14 (F := Ideal) x mu (ix2 j k) = -(x (ix2 j k) - mu (ix1 k)) := by
  have e : idx_main_v11 (idx_main_v12 (ix2 j k)) = ix1 k :=
    funext fun a => Fin.ext (by match a with | ⟨0, _⟩ => rfl)
  rw [val_main_v14_apply, val_main_v13_apply, val_main_v12_apply, val_main_v11_apply, e, Ideal.hostNegf_def,
    Ideal.negf_def, Ideal.subf_def]

/-- The kernel-weighted scores: stage 15 at (a, d) is Σ_b g(a, b) · (-(x_b,d - mu_d)). -/
theorem weighted_at (a : Fin 4096) (d : Fin 16) :
    val_main_v15 (F := Ideal) x mu (ix2 a d) = ∑ b : Fin 4096, gauss x a b * (-(x (ix2 b d) - mu (ix1 d))) := by
  have el : ∀ b : Fin 4096, lidx_main_v15 (ix2 a d) b = ix2 a b := fun b =>
    funext fun c => Fin.ext (by match c with | ⟨0, _⟩ => rfl | ⟨1, _⟩ => rfl)
  have er : ∀ b : Fin 4096, ridx_main_v15 (ix2 a d) b = ix2 b d := fun b =>
    funext fun c => Fin.ext (by match c with | ⟨0, _⟩ => rfl | ⟨1, _⟩ => rfl)
  rw [val_main_v15_apply]
  simp only [el, er, gauss_at, score_at]

/-- The kernel's gradient: stage 21 at (i, j, d) is (-((x_i,d - x_j,d) / 1)) · g(i, j). -/
theorem grad_at (i j : Fin 4096) (d : Fin 16) :
    val_main_v21 (F := Ideal) x (ix3 i j d)
      = (-(Ideal.div (x (ix2 i d) - x (ix2 j d)) ((1 : ℝ) : EReal))) * gauss x i j := by
  have e : idx_main_v19 (idx_main_v20 (ix3 i j d)) = ix2 i j :=
    funext fun c => Fin.ext (by match c with | ⟨0, _⟩ => rfl | ⟨1, _⟩ => rfl)
  rw [val_main_v21_apply, val_main_v18_apply, val_main_v17_apply, diff_at, val_main_v16_apply, val_main_cst_1_apply,
    val_main_v20_apply, val_main_v19_apply, e, gauss_at, Ideal.ofBits_def, ofBits_one, Ideal.hostDivf_def,
    Ideal.hostNegf_def, Ideal.negf_def, Ideal.mulf_def]

/-- The gradients summed over the FIRST particle: stage 22 at (a, d) is Σ_b (-((x_b,d - x_a,d) / 1)) · g(b, a). -/
theorem gradsum_at (a : Fin 4096) (d : Fin 16) :
    val_main_v22 (F := Ideal) x (ix2 a d)
      = ∑ b : Fin 4096, (-(Ideal.div (x (ix2 b d) - x (ix2 a d)) ((1 : ℝ) : EReal))) * gauss x b a := by
  have e : ∀ b : Fin 4096, idx_main_v22 (ix2 a d) b = ix3 b a d := fun b =>
    funext fun c => Fin.ext (by match c with | ⟨0, _⟩ => rfl | ⟨1, _⟩ => rfl | ⟨2, _⟩ => rfl)
  rw [val_main_v22_apply, val_main_cst_2_apply, Ideal.ofBits_def, Ideal.ofBits_zero_f32, zero_add]
  simp only [e, grad_at]

/-- The last stage at (a, d) is the direction there. -/
theorem result_at (a : Fin 4096) (d : Fin 16) :
    val_main_v25 (F := Ideal) x mu (ix2 a d) = directionAt x mu a d := by
  rw [val_main_v25_apply, val_main_v23_apply, weighted_at, gradsum_at, val_main_v24_apply, val_main_cst_3_apply,
    Ideal.ofBits_def, ofBits_4096, Ideal.addf_def, Ideal.hostDivf_def]
  rfl

end Cert.Stein.Ref

namespace Cert.Stein

/-- THE PLAIN PROGRAM'S TERM IS THE DIRECTION, as arrays. -/
theorem result_eq (x : FVec Ideal S4096x16 .f32) (mu : FVec Ideal S16 .f32) :
    val_main_v25 (F := Ideal) x mu = direction x mu := by
  funext p
  obtain ⟨a, d, rfl⟩ : ∃ (a : Fin 4096) (d : Fin 16), p = ix2 a d := ⟨p 0, p 1, eq_ix2 p⟩
  exact Ref.result_at x mu a d

/-! ## The run -/

/-- Every weakly fair execution of the plain program ends with its result at the direction of its arguments, the
    arguments unchanged. -/
theorem reference_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v25)
          = Cert.Stein.direction (m' ((c.tc : Thread _ _).loc Cert.ReferenceIdeal.main_arg0))
              (m' ((c.tc : Thread _ _).loc Cert.ReferenceIdeal.main_arg1))
        ∧ r.2.mem ((c.tc : Thread _ _).loc Cert.ReferenceIdeal.main_arg0) = m' ((c.tc : Thread _ _).loc Cert.ReferenceIdeal.main_arg0)
        ∧ r.2.mem ((c.tc : Thread _ _).loc Cert.ReferenceIdeal.main_arg1) = m' ((c.tc : Thread _ _).loc Cert.ReferenceIdeal.main_arg1)) :=
  (θ_run _ _ _).mono
    (fun _ h c => ⟨by rw [(h c).1, val_main_v25_eq, result_eq], (h c).2⟩)
    (Cert.ReferenceIdeal.Value.run (F := Ideal) m' ρ')

end Cert.Stein

end
-- ==== Proof.RefDirectionFinite.lean ====
/-
  The precondition makes every entry of the two argument arrays a real number.

  The precondition is the conjunction of two "all" tests, one per array: every entry's absolute value is strictly below
  the float word of +∞, read on the extended reals. An extended real whose absolute value max(v, -v) is strictly below ⊤
  is neither ⊤ nor ⊥, so it is (the coercion of) a real.
-/
import proofs.«158856_j48387101557205_2_alg».proof.Defs
import proofs.«158856_j48387101557205_2_alg».proof.Proof.Gen.Pre_finite_inputs
import Idealize.ShloMosaic.Lib.ReduceAll
import Idealize.ShloMosaic.Lib.ValueIdx
import Idealize.ShloMosaic.PureOps.Ideal

noncomputable section

open Idealize.ShloMosaic Idealize.ShloMosaic.ValueIdx Idealize.ShloMosaic.TcCoe Idealize.SL.Sem

namespace Cert.Stein.Ref

/-- The scalar shape has one index. -/
instance scalarIdx_subsingleton : Subsingleton Cert.Pre_finite_inputs.S_.Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- An extended real whose absolute value is strictly below +∞ is a real. -/
theorem real_of_abs_lt (v : EReal)
    (h : Ideal.cmp .olt (max v (-v)) (Ideal.ofBits .f32 0x7F800000#32) = 1#1) : ∃ r : ℝ, v = (r : EReal) := by
  rw [ofBits_inf] at h
  induction v using EReal.rec with
  | bot => simp [Ideal.cmp] at h
  | coe r => exact ⟨r, rfl⟩
  | top => simp [Ideal.cmp] at h

end Cert.Stein.Ref

namespace Cert.Stein

/-- THE PRECONDITION DECODED: on every device each entry of the particle array and of the mean is a real. -/
theorem finite_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ p, ∃ r : ℝ, m ((c.tc : Thread Cert.KernelIdeal.nD Cert.KernelIdeal.τ).loc Cert.KernelIdeal.main_arg0) p = (r : EReal))
      ∧ (∀ q, ∃ r : ℝ, m ((c.tc : Thread Cert.KernelIdeal.nD Cert.KernelIdeal.τ).loc Cert.KernelIdeal.main_arg1) q = (r : EReal)) := by
  have e := congrFun (h c) ValueIdx.ix0
  dsimp only [Cert.Pre_finite_inputs.fn] at e
  obtain ⟨e0, e1⟩ := IntOp.andi_eq_one.1 e
  refine ⟨fun p => ?_, fun q => ?_⟩
  · exact Ref.real_of_abs_lt _ (Host.reduce_andi_all _ _ _ _ _ e0 p)
  · exact Ref.real_of_abs_lt _ (Host.reduce_andi_all _ _ _ _ _ e1 q)

end Cert.Stein

end
-- ==== Proof.Algebra.lean ====
/-
  The blocked order and the plain order of the Stein direction are the same number when every entry of the particle
  array and of the mean is a real number.

  The extended reals do not distribute at the infinities, so every quantity is first shown to be the coercion of a real
  one; the comparison is then an identity between finite real sums:

    (i)   Σ_d (-2 X_a,d) X_b,d + |X_a|² · 1 + 1 · |X_b|² = Σ_d (X_a,d - X_b,d)² ≥ 0, so clamping at zero changes nothing;
    (ii)  s · (-1/2) = (-s) · (1/2), so both Gaussian kernels are exp of the same real, symmetric in its two particles;
    (iii) Σ_b g_b (-(X_b - M)) + Σ_b (-((X_b - X_a) · (1/1))) g_b = (M + X_a · 1) · Σ_b g_b · 1 - (Σ_b g_b X_b) · 2.
-/
import proofs.«158856_j48387101557205_2_alg».proof.Proof.Spec

noncomputable section

namespace Cert.Stein

open Idealize.ShloMosaic Idealize.ShloMosaic.ValueIdx

/-! ## Finite real sums -/

section RealSums

variable {ι κ : Type*}

/-- The coercion of a finite real sum is the sum of the coercions. -/
theorem coe_finset_sum (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- (i) The expanded squared distance is the sum of the squared differences. -/
theorem real_sqDist_expand [Fintype κ] (X : ι → κ → ℝ) (a b : ι) :
    (∑ d, (X a d * (-2)) * X b d) + (∑ d, X a d * X a d) * 1 + 1 * (∑ d, X b d * X b d)
      = ∑ d, (X a d - X b d) * (X a d - X b d) := by
  rw [mul_one, one_mul, ← Finset.sum_add_distrib, ← Finset.sum_add_distrib]
  exact Finset.sum_congr rfl (fun d _ => by ring)

/-- A sum of squares is not negative. -/
theorem real_sqDist_nonneg [Fintype κ] (X : ι → κ → ℝ) (a b : ι) :
    0 ≤ ∑ d, (X a d - X b d) * (X a d - X b d) :=
  Finset.sum_nonneg (fun d _ => mul_self_nonneg _)

/-- The sum of the squared differences is symmetric in the two particles. -/
theorem real_sqDist_symm [Fintype κ] (X : ι → κ → ℝ) (a b : ι) :
    (∑ d, (X a d - X b d) * (X a d - X b d)) = ∑ d, (X b d - X a d) * (X b d - X a d) :=
  Finset.sum_congr rfl (fun d _ => by ring)

/-- (iii) With one weight g_b per particle, the two orders of the direction's numerator agree. -/
theorem real_direction [Fintype ι] (g Y : ι → ℝ) (m xa : ℝ) :
    ((m + xa * 1) * (∑ b, g b * 1) - (∑ b, g b * Y b) * 2) * (1 / 4096)
      = ((∑ b, g b * (-(Y b - m))) + (∑ b, (-((Y b - xa) * (1 / 1))) * g b)) * (1 / 4096) := by
  congr 1
  rw [Finset.mul_sum, Finset.sum_mul, ← Finset.sum_sub_distrib, ← Finset.sum_add_distrib]
  exact Finset.sum_congr rfl (fun b _ => by ring)

end RealSums

/-! ## Every quantity of the two orders is a coerced real -/

section Coe

variable (X : SX.Idx → ℝ) (M : SMu.Idx → ℝ)

/-- The real squared distance. -/
def rSq (a b : Fin 4096) : ℝ := ∑ d : Fin 16, (X (ix2 a d) - X (ix2 b d)) * (X (ix2 a d) - X (ix2 b d))

/-- The real Gaussian kernel. -/
def rG (a b : Fin 4096) : ℝ := Real.exp (-(rSq X a b) * (1 / 2))

theorem rSq_symm (a b : Fin 4096) : rSq X a b = rSq X b a :=
  real_sqDist_symm (fun (a : Fin 4096) (d : Fin 16) => X (ix2 a d)) a b

theorem rG_symm (a b : Fin 4096) : rG X a b = rG X b a := by
  unfold rG; rw [rSq_symm]

theorem sqDist_coe (a b : Fin 4096) : sqDist (fun p => (X p : EReal)) a b = (rSq X a b : EReal) := by
  unfold sqDist rSq
  rw [coe_finset_sum]
  refine Finset.sum_congr rfl (fun d _ => ?_)
  rw [EReal.coe_mul, EReal.coe_sub]

theorem gauss_coe (a b : Fin 4096) : gauss (fun p => (X p : EReal)) a b = (rG X a b : EReal) := by
  unfold gauss rG
  rw [sqDist_coe, Ideal.div_coe (by norm_num : (2 : ℝ) ≠ 0), ← EReal.coe_neg, ← EReal.coe_mul, Ideal.exp_coe]

theorem sqNorm_coe (a : Fin 4096) :
    sqNorm (fun p => (X p : EReal)) a = ((∑ d : Fin 16, X (ix2 a d) * X (ix2 a d) : ℝ) : EReal) := by
  unfold sqNorm
  rw [coe_finset_sum]
  refine Finset.sum_congr rfl (fun d _ => ?_)
  rw [EReal.coe_mul]

theorem sqDistExp_coe (a b : Fin 4096) : sqDistExp (fun p => (X p : EReal)) a b = (rSq X a b : EReal) := by
  unfold sqDistExp
  have hsum : (∑ d : Fin 16, ((X (ix2 a d) : EReal) * ((-2 : ℝ) : EReal)) * (X (ix2 b d) : EReal))
      = ((∑ d : Fin 16, (X (ix2 a d) * (-2)) * X (ix2 b d) : ℝ) : EReal) := by
    rw [coe_finset_sum]
    refine Finset.sum_congr rfl (fun d _ => ?_)
    rw [EReal.coe_mul, EReal.coe_mul]
  rw [hsum, sqNorm_coe, sqNorm_coe, ← EReal.coe_mul, ← EReal.coe_mul, ← EReal.coe_add, ← EReal.coe_add,
    real_sqDist_expand (fun (a : Fin 4096) (d : Fin 16) => X (ix2 a d)) a b]
  exact max_eq_left (by exact_mod_cast real_sqDist_nonneg (fun (a : Fin 4096) (d : Fin 16) => X (ix2 a d)) a b)

theorem gaussExp_coe (a b : Fin 4096) : gaussExp (fun p => (X p : EReal)) a b = (rG X a b : EReal) := by
  unfold gaussExp rG
  rw [sqDistExp_coe, ← EReal.coe_mul, Ideal.exp_coe]
  congr 2
  ring

theorem rowSum_coe (a : Fin 4096) :
    rowSum (fun p => (X p : EReal)) a = ((∑ b : Fin 4096, rG X a b * 1 : ℝ) : EReal) := by
  unfold rowSum
  rw [coe_finset_sum]
  refine Finset.sum_congr rfl (fun b _ => ?_)
  rw [gaussExp_coe, EReal.coe_mul]

theorem rowMoment_coe (a : Fin 4096) (d : Fin 16) :
    rowMoment (fun p => (X p : EReal)) a d = ((∑ b : Fin 4096, rG X a b * X (ix2 b d) : ℝ) : EReal) := by
  unfold rowMoment
  rw [coe_finset_sum]
  refine Finset.sum_congr rfl (fun b _ => ?_)
  rw [gaussExp_coe, EReal.coe_mul]

theorem directionExpAt_coe (a : Fin 4096) (d : Fin 16) :
    directionExpAt (fun p => (X p : EReal)) (fun q => (M q : EReal)) a d
      = ((((M (ix1 d) + X (ix2 a d) * 1) * (∑ b : Fin 4096, rG X a b * 1)
            - (∑ b : Fin 4096, rG X a b * X (ix2 b d)) * 2) * (1 / 4096) : ℝ) : EReal) := by
  unfold directionExpAt
  rw [rowSum_coe, rowMoment_coe, ← EReal.coe_mul, ← EReal.coe_add, ← EReal.coe_mul, ← EReal.coe_mul, ← EReal.coe_sub,
    ← EReal.coe_mul]

theorem directionAt_coe (a : Fin 4096) (d : Fin 16) :
    directionAt (fun p => (X p : EReal)) (fun q => (M q : EReal)) a d
      = ((((∑ b : Fin 4096, rG X a b * (-(X (ix2 b d) - M (ix1 d))))
            + (∑ b : Fin 4096, (-((X (ix2 b d) - X (ix2 a d)) * (1 / 1))) * rG X a b)) * (1 / 4096) : ℝ) : EReal) := by
  unfold directionAt
  have h1 : (∑ b : Fin 4096, gauss (fun p => (X p : EReal)) a b * (-((X (ix2 b d) : EReal) - (M (ix1 d) : EReal))))
      = ((∑ b : Fin 4096, rG X a b * (-(X (ix2 b d) - M (ix1 d))) : ℝ) : EReal) := by
    rw [coe_finset_sum]
    refine Finset.sum_congr rfl (fun b _ => ?_)
    rw [gauss_coe, EReal.coe_mul, EReal.coe_neg, EReal.coe_sub]
  have h2 : (∑ b : Fin 4096, (-(Ideal.div ((X (ix2 b d) : EReal) - (X (ix2 a d) : EReal)) ((1 : ℝ) : EReal)))
        * gauss (fun p => (X p : EReal)) b a)
      = ((∑ b : Fin 4096, (-((X (ix2 b d) - X (ix2 a d)) * (1 / 1))) * rG X a b : ℝ) : EReal) := by
    rw [coe_finset_sum]
    refine Finset.sum_congr rfl (fun b _ => ?_)
    rw [gauss_coe, rG_symm X b a, Ideal.div_coe (by norm_num : (1 : ℝ) ≠ 0), EReal.coe_mul, EReal.coe_neg,
      EReal.coe_mul, EReal.coe_sub]
  rw [h1, h2, Ideal.div_coe (by norm_num : (4096 : ℝ) ≠ 0), ← EReal.coe_add, ← EReal.coe_mul]

end Coe

/-! ## The two orders agree -/

/-- On real entries the blocked order and the plain order of the Stein direction are the same number. -/
theorem directionExpAt_eq_directionAt (x : SX.Idx → EReal) (mu : SMu.Idx → EReal)
    (hx : ∀ p, ∃ r : ℝ, x p = (r : EReal)) (hmu : ∀ q, ∃ r : ℝ, mu q = (r : EReal))
    (a : Fin 4096) (d : Fin 16) :
    directionExpAt x mu a d = directionAt x mu a d := by
  choose X hX using hx
  choose M hM using hmu
  obtain rfl : x = fun p => (X p : EReal) := funext hX
  obtain rfl : mu = fun q => (M q : EReal) := funext hM
  rw [directionExpAt_coe, directionAt_coe,
    real_direction (fun b : Fin 4096 => rG X a b) (fun b : Fin 4096 => X (ix2 b d)) (M (ix1 d)) (X (ix2 a d))]

end Cert.Stein

end
-- ==== Proof.lean ====
/-
  The blocked Stein-direction program and its plain reference compute the same array on the extended reals.

  Both take 4096 particles in dimension 16 and a mean. With the Gaussian kernel g(a, b) = exp(-|x_a - x_b|² / 2) the
  reference returns ( Σ_b g(a, b)(mu - x_b) + Σ_b (x_a - x_b) g(b, a) ) / 4096, summing the second term over the
  kernel's FIRST argument. The blocked program visits 2 row blocks × 4 column blocks; per row block it accumulates
  Σ_b g(a, b) x_b and Σ_b g(a, b) over the column blocks, with the squared distance expanded as
  |x_a|² + |x_b|² - 2 x_a·x_b and clamped at zero, and closes with ((mu + x_a)·Σ_b g - 2·Σ_b g x_b) / 4096.
  The two agree because g is symmetric, the expansion is exact and non-negative over the reals, 1/4096 is the
  reciprocal of 4096, and under the precondition every entry is a real number, so that the sums may be redistributed.

  The three frames: each program runs to the end, faults nowhere and leaves its arguments unchanged — for the blocked
  program at both instances from its run point by point, the particles being read through two windows at half
  shares; for the reference from its run read back. Nothing was rewritten in idealizing the blocked program, so that
  conjunct is trivial.
-/
import proofs.«158856_j48387101557205_2_alg».proof.Defs
import proofs.«158856_j48387101557205_2_alg».proof.Proof.Gen.Kernel
import proofs.«158856_j48387101557205_2_alg».proof.Proof.Gen.KernelIdeal
import proofs.«158856_j48387101557205_2_alg».proof.Proof.Gen.ReferenceIdeal
import proofs.«158856_j48387101557205_2_alg».proof.Proof.Gen.Pre_finite_inputs
import proofs.«158856_j48387101557205_2_alg».proof.Proof.KernelLaunch
import proofs.«158856_j48387101557205_2_alg».proof.Proof.KernelIdealValue
import proofs.«158856_j48387101557205_2_alg».proof.Proof.RefDirection
import proofs.«158856_j48387101557205_2_alg».proof.Proof.RefDirectionFinite
import proofs.«158856_j48387101557205_2_alg».proof.Proof.Algebra
import Idealize.ShloMosaic.Adequacy
import Idealize.ShloMosaic.Init

noncomputable section

namespace Cert.Proof

open Idealize.ShloMosaic Idealize.ShloMosaic.TcCoe Idealize.SL.Sem

/-! ## The frames -/

theorem frame_kernel : Cert.frame_Kernel := fun m ρ _ => Cert.Kernel.Hand.frame (F := Bits) m ρ
theorem frame_kernelIdeal : Cert.frame_KernelIdeal := fun m ρ _ => Cert.KernelIdeal.Hand.frame (F := Ideal) m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten in idealizing the blocked program. -/
theorem preserves : Cert.preserves_Kernel_KernelIdeal := trivial

/-! ## The two results are one array -/

/-- Under the precondition the blocked program's result, the blocked-order direction of its arguments, is their
    plain-order direction: every entry is a real number, where the two orders agree. -/
theorem blocked_eq_plain (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.HandValue.G m c
      = Cert.Stein.direction (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  obtain ⟨hx, hmu⟩ := Cert.Stein.finite_of_pre m hpre c
  funext p
  exact Cert.Stein.directionExpAt_eq_directionAt _ _ hx hmu (p 0) (p 1)

/-- From memories agreeing on the arguments both programs end with the plain-order direction of those arguments. -/
theorem algebraic : Cert.algebraic_KernelIdeal_ReferenceIdeal := by
  intro m ρ m' ρ' hpre hagree
  refine ⟨fun c => Cert.Stein.direction (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run Cert.KernelIdeal.defs _ _).mono (fun _ h c => ⟨(h c).1.trans (blocked_eq_plain m hpre c), (h c).2⟩)
      (Cert.KernelIdeal.HandValue.run m ρ)
  · refine (θ_run Cert.ReferenceIdeal.defs _ _).mono (fun _ h c => ⟨?_, (h c).2⟩) (Cert.Stein.reference_run m' ρ')
    rw [(h c).1, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
